-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S64 : Shape := ⟨1, ![64]⟩
abbrev S16x1024x4096 : Shape := ⟨3, ![16, 1024, 4096]⟩
abbrev S16x4096 : Shape := ⟨2, ![16, 4096]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S16x1024x4096 : S_.BroadcastsInDim S16x1024x4096 (![] : Fin 0 → Fin S16x1024x4096.rank)
  reducesTo_S16x1024x4096_S_d0_1_2 : S16x1024x4096.ReducesTo [0, 1, 2] S_
  bcast_S_S16x4096 : S_.BroadcastsInDim S16x4096 (![] : Fin 0 → Fin S16x4096.rank)
  reducesTo_S16x4096_S_d0_1 : S16x4096.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v15 : IVec S64 1) (main_c_5 : IVec S_ 1) : IVec S_ 1 :=
  let main_v16 : IVec S_ 1 := (fun x v => Host.reduce IntOp.andi x v reducesTo_S64_S_d0 h_S_) main_v15 main_c_5
  let main_v17 : IVec S_ 1 := andi main_v13 main_v16
  main_v17

def fn {F : FTy → Type} [FloatOps F] (main_arg0 : FVec F S64x512x1024 .f32) (main_arg1 : IVec S64 32) (main_arg2 : FVec F S16x1024x4096 .f32) (main_arg3 : FVec F S16x4096 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S16x1024x4096 .f32 := Host.absf main_arg2
  let main_cst_0 : FVec F S_ .f32 := constant S_ .f32 0x7F800000#32
  let main_v5 : FVec F S16x1024x4096 .f32 := broadcastInDim S16x1024x4096 ![] bcast_S_S16x1024x4096 main_cst_0
  let main_v6 : IVec S16x1024x4096 1 := cmpf .olt main_v4 main_v5
  let main_c_1 : IVec S_ 1 := constantI S_ 1 1#1
  let main_v7 : IVec S_ 1 := (fun x v => Host.reduce IntOp.andi x v reducesTo_S16x1024x4096_S_d0_1_2 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_c_4 : IVec S_ 32 := constantI S_ 32 0#32
  let main_v14 : IVec S64 32 := broadcastInDim S64 ![] bcast_S_S64 main_c_4
  let main_v15 : IVec S64 1 := cmpi .sge main_arg1 main_v14
  let main_c_5 : IVec S_ 1 := constantI S_ 1 1#1
  fn_part1 (F := F) main_v13 main_v15 main_c_5
-- ==== Kernel.lean ====
abbrev S64x512x1024 : Shape := ⟨3, ![64, 512, 1024]⟩
abbrev S64 : Shape := ⟨1, ![64]⟩
abbrev S16x1024x4096 : Shape := ⟨3, ![16, 1024, 4096]⟩
abbrev S16x4096 : Shape := ⟨2, ![16, 4096]⟩
abbrev S_ : Shape := ⟨0, ![]⟩
abbrev S64x1 : Shape := ⟨2, ![64, 1]⟩
abbrev S16x1x4096 : Shape := ⟨3, ![16, 1, 4096]⟩
abbrev S64x512x4096 : Shape := ⟨3, ![64, 512, 4096]⟩
abbrev S1x512x1024 : Shape := ⟨3, ![1, 512, 1024]⟩
abbrev S1 : Shape := ⟨1, ![1]⟩
abbrev S1x1024x1024 : Shape := ⟨3, ![1, 1024, 1024]⟩
abbrev S1x1x1024 : Shape := ⟨3, ![1, 1, 1024]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 24
  | .vmem => 8
  | .smem => 2
  | _ => 0

abbrev bufTy : (tb : Table) → Fin (tcTables nBuf tb) → BufTy
  | .hbm, ⟨0, _⟩ => ⟨S64x512x1024, .f32⟩
  | .hbm, ⟨1, _⟩ => ⟨S64, .i32⟩
  | .hbm, ⟨2, _⟩ => ⟨S16x1024x4096, .f32⟩
  | .hbm, ⟨3, _⟩ => ⟨S16x4096, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i1⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S64, .i32⟩
  | .hbm, ⟨21, _⟩ => ⟨S64x1, .i32⟩
  | .hbm, ⟨22, _⟩ => ⟨S16x1x4096, .f32⟩
  | .hbm, ⟨23, _⟩ => ⟨S64x512x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x512x1024, .f32⟩
  | .local _ .vmem, ⟨7, _⟩ => ⟨S1x512x1024, .f32⟩
  | .local _ .smem, ⟨0, _⟩ => ⟨S64, .i32⟩
  | .local _ .smem, ⟨1, _⟩ => ⟨S64, .i32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_v0 : Ref sig .tc := ⟨.hbm, 12, rfl⟩
abbrev main_call1_v1_0 : Ref sig .tc := ⟨.hbm, 13, rfl⟩
abbrev main_c_1 : Ref sig .tc := ⟨.hbm, 14, rfl⟩
abbrev main_v2 : Ref sig .tc := ⟨.hbm, 15, rfl⟩
abbrev main_v3 : Ref sig .tc := ⟨.hbm, 16, rfl⟩
abbrev main_c_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v9 : Ref sig .tc := ⟨.hbm, 22, rfl⟩
abbrev main_v10 : Ref sig .tc := ⟨.hbm, 23, rfl⟩
abbrev main_v1 : Ref sig .tc := ⟨.smem, 0, rfl⟩
abbrev main_v8 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 64], ![false, false]⟩

abbrev pre0 : Pipeline.Prefetch sig := ⟨2, ![main_v1.idx, main_v8.idx], fun | 0 => main_v1.names | 1 => main_v8.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S64) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S64) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S64) ![v0.toNat] S1.size (k0_off1_inb i)) numel1_S1
  let c0_i32 : BitVec 32 := 0#32
  let c0_i32_0 : BitVec 32 := 0#32
  ![v1.toNat, c0_i32.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S16x4096_S16x1x4096_0_2 : S16x4096.BroadcastsInDim S16x1x4096 (![0, 2] : Fin 2 → Fin S16x1x4096.rank)
  numel1_S1 : S1.numel = 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  shapeCasts_S512x1024_S1x512x1024 : S512x1024.ShapeCasts S1x512x1024
  gather_S64_S64x1_S64_n_0_n_n_0_1_1_wf : GatherDims.WF S64 S64x1 S64 [] [0] [] [0] [] 1 ![1]
  dot_S512x1024_S1024x1024_S512x1024_1_0_0_1_n_n_wf : DotDims.WF S512x1024 S1024x1024 S512x1024 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S64_S64x1_S64_n_0_n_n_0_1_1 : GatherDims S64 S64x1 S64 where
  offsetDims := []
  collapsedSliceDims := [0]
  operandBatchingDims := []
  startIndicesBatchingDims := []
  startIndexMap := [0]
  indexVectorDim := 1
  sliceSizes := ![1]
  wf := gather_S64_S64x1_S64_n_0_n_n_0_1_1_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev spec0_0 : Pipeline.WinSpec sig grid0.rank :=
  Pipeline.WinSpec.ofSpec (Memref.whole main_arg0) S1x512x1024.size reads0_0 false false 2 stage0_0 sem0_0 nbuf0_0 hstage0_0

abbrev spec0_1 : Pipeline.WinSpec sig grid0.rank :=
  Pipeline.WinSpec.ofSpec (Memref.whole main_arg2) S1x1024x1024.size reads0_1 false false 2 stage0_1 sem0_1 nbuf0_1 hstage0_1

abbrev spec0_2 : Pipeline.WinSpec sig grid0.rank :=
  Pipeline.WinSpec.ofSpec (Memref.whole main_v9) S1x1x1024.size reads0_2 false false 2 stage0_2 sem0_2 nbuf0_2 hstage0_2

abbrev spec0_3 : Pipeline.WinSpec sig grid0.rank :=
  Pipeline.WinSpec.ofSpec (Memref.whole main_v10) S1x512x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x512x1024.size a ≤ S64x512x1024.size a), EltTy.bits .f32 = 32 ∨ (Rect.block (s := S64x512x1024) S1x512x1024.size (cc0_transform_0 k0_off1_inb numel1_S1 pf i) h).WholeWords (EltTy.packing .f32)) ∧
  (∀ i : grid0.Coords, ∃ h : (∀ a, (cc0_transform_1 k0_off1_inb numel1_S1 pf i a + 1) * S1x1024x1024.size a ≤ S16x1024x4096.size a), EltTy.bits .f32 = 32 ∨ (Rect.block (s := S16x1024x4096) S1x1024x1024.size (cc0_transform_1 k0_off1_inb numel1_S1 pf i) h).WholeWords (EltTy.packing .f32)) ∧
  (∀ i : grid0.Coords, ∃ h : (∀ a, (cc0_transform_2 k0_off1_inb numel1_S1 pf i a + 1) * S1x1x1024.size a ≤ S16x1x4096.size a), EltTy.bits .f32 = 32 ∨ (Rect.block (s := S16x1x4096) S1x1x1024.size (cc0_transform_2 k0_off1_inb numel1_S1 pf i) h).WholeWords (EltTy.packing .f32)) ∧
  (∀ i : grid0.Coords, ∃ h : (∀ a, (cc0_transform_3 k0_off1_inb numel1_S1 pf i a + 1) * S1x512x1024.size a ≤ S64x512x4096.size a), EltTy.bits .f32 = 32 ∨ (Rect.block (s := S64x512x4096) S1x512x1024.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S64x512x1024 : Shape := ⟨3, ![64, 512, 1024]⟩
abbrev S64 : Shape := ⟨1, ![64]⟩
abbrev S16x1024x4096 : Shape := ⟨3, ![16, 1024, 4096]⟩
abbrev S16x4096 : Shape := ⟨2, ![16, 4096]⟩
abbrev S_ : Shape := ⟨0, ![]⟩
abbrev S64x1 : Shape := ⟨2, ![64, 1]⟩
abbrev S64x1024x4096 : Shape := ⟨3, ![64, 1024, 4096]⟩
abbrev S64x4096 : Shape := ⟨2, ![64, 4096]⟩
abbrev S64x512x4096 : Shape := ⟨3, ![64, 512, 4096]⟩
abbrev S64x1x4096 : Shape := ⟨3, ![64, 1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64, .i32⟩
  | .hbm, ⟨2, _⟩ => ⟨S16x1024x4096, .f32⟩
  | .hbm, ⟨3, _⟩ => ⟨S16x4096, .f32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S64x1024x4096, .f32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x4096, .f32⟩
  | .hbm, ⟨22, _⟩ => ⟨S64x512x4096, .f32⟩
  | .hbm, ⟨23, _⟩ => ⟨S64x1x4096, .f32⟩
  | .hbm, ⟨24, _⟩ => ⟨S64x512x4096, .f32⟩
  | .hbm, ⟨25, _⟩ => ⟨S64x512x4096, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x4096_S64x1x4096_0_2 : S64x4096.BroadcastsInDim S64x1x4096 (![0, 2] : Fin 2 → Fin S64x1x4096.rank)
  bcast_S64x1x4096_S64x512x4096_0_1_2 : S64x1x4096.BroadcastsInDim S64x512x4096 (![0, 1, 2] : Fin 3 → Fin S64x512x4096.rank)
  gather_S16x1024x4096_S64x1_S64x1024x4096_12_0_n_n_0_1_110244096_wf : GatherDims.WF S16x1024x4096 S64x1 S64x1024x4096 [1, 2] [0] [] [0] [] 1 ![1, 1024, 4096]
  gather_S16x4096_S64x1_S64x4096_1_0_n_n_0_1_14096_wf : GatherDims.WF S16x4096 S64x1 S64x4096 [1] [0] [] [0] [] 1 ![1, 4096]
  dot_S64x512x1024_S64x1024x4096_S64x512x4096_2_1_1_2_0_0_wf : DotDims.WF S64x512x1024 S64x1024x4096 S64x512x4096 [2] [1] [1] [2] [0] [0]

variable [Facts₀]

def gather_S16x1024x4096_S64x1_S64x1024x4096_12_0_n_n_0_1_110244096 : GatherDims S16x1024x4096 S64x1 S64x1024x4096 where
  offsetDims := [1, 2]
  collapsedSliceDims := [0]
  operandBatchingDims := []
  startIndicesBatchingDims := []
  startIndexMap := [0]
  indexVectorDim := 1
  sliceSizes := ![1, 1024, 4096]
  wf := gather_S16x1024x4096_S64x1_S64x1024x4096_12_0_n_n_0_1_110244096_wf
def gather_S16x4096_S64x1_S64x4096_1_0_n_n_0_1_14096 : GatherDims S16x4096 S64x1 S64x4096 where
  offsetDims := [1]
  collapsedSliceDims := [0]
  operandBatchingDims := []
  startIndicesBatchingDims := []
  startIndexMap := [0]
  indexVectorDim := 1
  sliceSizes := ![1, 4096]
  wf := gather_S16x4096_S64x1_S64x4096_1_0_n_n_0_1_14096_wf
def dot_S64x512x1024_S64x1024x4096_S64x512x4096_2_1_1_2_0_0 : DotDims S64x512x1024 S64x1024x4096 S64x512x4096 where
  lhsContracting := [2]
  rhsContracting := [1]
  lhsNonContracting := [1]
  rhsNonContracting := [2]
  lhsBatch := [0]
  rhsBatch := [0]
  wf := dot_S64x512x1024_S64x1024x4096_S64x512x4096_2_1_1_2_0_0_wf

class Facts : Prop extends Facts₀ where

variable [Facts]
-- ==== Proof.Words.lean ====
/-
  Facts about 32-bit words read as signed integers, as the two programs use them.

  * `clip w` — the word `w` clamped into 0 … 15 by a signed maximum with 0 and a signed minimum with 15 — read
    as a natural number is `w` read signed and clamped into 0 … 15: below zero both are 0, above 15 both are 15.
  * The word of a number `k < 64` is not negative, reads as `k` signed and unsigned.
  * A word that is signed-nonnegative is not signed-below zero.
-/
import Idealize.ShloMosaic.PureOps.Ideal

namespace Cert.CatLinear

open Idealize.ShloMosaic

/-- The signed clamp of a word into 0 … 15. -/
def clip (w : BitVec 32) : BitVec 32 := IntOp.minsi 15#32 (IntOp.maxsi 0#32 w)

theorem ofBool_eq_one (b : Bool) : BitVec.ofBool b = 1#1 ↔ b = true := by cases b <;> decide

theorem toInt_cases (w : BitVec 32) :
    (w.toNat < 2 ^ 31 ∧ w.toInt = (w.toNat : Int)) ∨ (2 ^ 31 ≤ w.toNat ∧ w.toInt = (w.toNat : Int) - 2 ^ 32) := by
  rw [BitVec.toInt_eq_toNat_cond]
  by_cases h : 2 * w.toNat < 2 ^ 32
  · left; rw [if_pos h]; exact ⟨by omega, rfl⟩
  · right; rw [if_neg h]; exact ⟨by omega, by push_cast; rfl⟩

/-- The clamped word, read unsigned, is the word read signed and clamped into 0 … 15. -/
theorem clip_toNat (w : BitVec 32) : (clip w).toNat = min w.toInt.toNat 15 := by
  have h0 : (0#32 : BitVec 32).toInt = 0 := by decide
  have h15 : (15#32 : BitVec 32).toInt = 15 := by decide
  have h15n : (15#32 : BitVec 32).toNat = 15 := by decide
  have h0n : (0#32 : BitVec 32).toNat = 0 := by decide
  rcases toInt_cases w with ⟨hlt, hw⟩ | ⟨hge, hw⟩
  · -- a nonnegative word: the maximum with 0 keeps it
    have hm : IntOp.maxsi 0#32 w = w := by
      unfold IntOp.maxsi
      rw [if_neg]
      simp only [BitVec.slt, h0, decide_eq_true_eq]; omega
    unfold clip; rw [hm]; unfold IntOp.minsi
    by_cases h : (15 : Int) < w.toInt
    · rw [if_pos (by simp only [BitVec.slt, h15, decide_eq_true_eq]; exact h), h15n]; omega
    · rw [if_neg (by simp only [BitVec.slt, h15, decide_eq_true_eq]; exact h)]; omega
  · -- a negative word: the maximum with 0 is 0
    have hm : IntOp.maxsi 0#32 w = 0#32 := by
      unfold IntOp.maxsi
      rw [if_pos]
      simp only [BitVec.slt, h0, decide_eq_true_eq]; omega
    unfold clip; rw [hm]; unfold IntOp.minsi
    rw [if_neg (by simp only [BitVec.slt, h15, h0, decide_eq_true_eq]; omega), h0n]; omega

theorem clip_lt (w : BitVec 32) : (clip w).toNat < 16 := by
  rw [clip_toNat]; omega

/-- The word of a number below 64 reads back as that number, -/
theorem ofNat_toNat (k : Nat) (hk : k < 64) : (BitVec.ofNat 32 k).toNat = k := by
  rw [BitVec.toNat_ofNat]; omega

/-- also as a signed integer, -/
theorem ofNat_toInt_toNat (k : Nat) (hk : k < 64) : (BitVec.ofNat 32 k).toInt.toNat = k := by
  have h := ofNat_toNat k hk
  rcases toInt_cases (BitVec.ofNat 32 k) with ⟨_, hw⟩ | ⟨hge, _⟩
  · rw [hw, h]; exact Int.toNat_natCast _
  · omega

/-- and is not negative. -/
theorem ofNat_not_neg (k : Nat) (hk : k < 64) : IntOp.cmpi .slt (BitVec.ofNat 32 k) 0#32 = 0#1 := by
  have h := ofNat_toNat k hk
  have h0 : (0#32 : BitVec 32).toInt = 0 := by decide
  unfold IntOp.cmpi
  simp only [BitVec.slt, h0]
  rcases toInt_cases (BitVec.ofNat 32 k) with ⟨_, hw⟩ | ⟨hge, _⟩
  · have : ¬ (BitVec.ofNat 32 k).toInt < 0 := by omega
    simp [this]
  · omega

/-- A word that is signed-nonnegative is not signed-below zero. -/
theorem not_neg_of_nonneg (w : BitVec 32) (h : IntOp.cmpi .sge w 0#32 = 1#1) : IntOp.cmpi .slt w 0#32 = 0#1 := by
  have h0 : (0#32 : BitVec 32).toInt = 0 := by decide
  unfold IntOp.cmpi at h ⊢
  rw [ofBool_eq_one] at h
  simp only [BitVec.sle, h0, decide_eq_true_eq] at h
  simp only [BitVec.slt, h0]
  have : ¬ w.toInt < 0 := by omega
  simp [this]

end Cert.CatLinear
-- ==== Proof.LibGatherScatter.lean ====
/-
  GATHER AND SCATTER READ AT AN INDEX, for the two layouts an embedding lookup and its transpose lower to:
  `stablehlo.gather` of the ROWS of an `[N, D]` table (or of the entries of a flat `[N]` array) at an `[E, 1]`
  array of start indices, and `stablehlo.scatter` with an `add` body of an `[E, D]` array of update rows into an
  `[N, D]` operand at an `[E, 1]` array of scatter indices. Each lemma is generic in the sizes `N E D` and in the
  index width `w`; the dimension numbers are built from the sizes and a proof of their side conditions, so a
  literal record of a program is definitionally one of them.
-/
import Idealize.ShloMosaic.PureOps.Ideal
import Idealize.ShloMosaic.PureOps.Ideal.Laws
import Idealize.ShloMosaic.Lib.ValueIdx

noncomputable section

open scoped BigOperators

namespace Cert.Lib.GatherScatter

open Idealize.ShloMosaic
open Idealize.ShloMosaic.ValueIdx

/-! ## Rows gather: `table[idx]` of an `[N, D]` table at `[E, 1]` start indices -/

section RowsGather
variable {α : Type}

/-- The dimension numbers of a rows gather: operand `[N, D]`, start indices `[E, 1]`, result `[E, D]`; the result's
    axis 1 is the offset axis, operand axis 0 is collapsed and is the one the start index names, the index vector
    lies along start-indices axis 1, and a slice is one whole row (`slice_sizes = [1, D]`). -/
abbrev rowsGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROWS GATHER READ AT `j = (e, k)`: the table at row `idx[e, 0]` — read as a signed integer and clamped into
    `[0, N − 1]` — and column `k`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (j : (⟨2, ![E, D]⟩ : Shape).Idx) :
    Host.gather (rowsGatherDims N E D wf) x idx j
      = x (ix2 (⟨min (idx (ix2 (j 0 : Fin E) (0 : Fin 1))).toInt.toNat (N - 1), by omega⟩ : Fin N) (j 1 : Fin D)) := by
  unfold Host.gather
  congr 1
  funext a
  refine Fin.ext ?_
  match a with
  | ⟨0, _⟩ =>
    show (rowsGatherDims N E D wf).start j idx 0 + (rowsGatherDims N E D wf).batchCoord j 0
      + (rowsGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims N E D wf).startIndexMap from List.mem_singleton.mpr rfl)]
    have hsi : (rowsGatherDims N E D wf).siIdx j ⟨List.idxOf (0 : Fin 2) (rowsGatherDims N E D wf).startIndexMap,
        List.idxOf_lt_length_iff.2 (List.mem_singleton.mpr rfl)⟩ = ix2 (j 0 : Fin E) (0 : Fin 1) := by
      funext b; refine Fin.ext ?_
      match b with
      | ⟨0, _⟩ => rfl
      | ⟨1, _⟩ => rfl
    rw [hsi]
    rfl
  | ⟨1, _⟩ =>
    show (rowsGatherDims N E D wf).start j idx 1 + (rowsGatherDims N E D wf).batchCoord j 1
      + (rowsGatherDims N E D wf).offCoord j 1 = (j 1).val
    rw [GatherDims.batchCoord_eq_zero _ _ _ List.not_mem_nil]
    unfold GatherDims.start
    rw [dif_neg (show (1 : Fin 2) ∉ (rowsGatherDims N E D wf).startIndexMap from
      (show (1 : Fin 2) ∉ [(0 : Fin 2)] by decide))]
    simp only [Nat.add_zero, Nat.zero_add]
    unfold GatherDims.offCoord
    rw [dif_pos (show (1 : Fin 2) ∈ (rowsGatherDims N E D wf).sKept from
      (GatherDims.mem_sKept _ _).mpr ⟨(show (1 : Fin 2) ∉ [(0 : Fin 2)] by decide), List.not_mem_nil⟩)]
    rfl

/-- The rows gather read at explicit coordinates `(e, k)`. -/
theorem gather_rows_apply_ix2 {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsGatherDims N E D wf) x idx (ix2 e k)
      = x (ix2 (⟨min (idx (ix2 e (0 : Fin 1))).toInt.toNat (N - 1), by omega⟩ : Fin N) k) :=
  gather_rows_apply hN wf x idx (ix2 e k)

/-- The rows gather read at `j`, for ANY record `d` of dimension numbers that is `rowsGatherDims` (the side
    condition `hd` closes by `rfl` on a literal record); the left side mentions `d` itself, so the lemma
    rewrites a goal that names the record. -/
theorem gather_rows_apply_of_eq {N E D w : Nat} (hN : 0 < N)
    (d : GatherDims ⟨2, ![N, D]⟩ ⟨2, ![E, 1]⟩ ⟨2, ![E, D]⟩)
    {wf : GatherDims.WF ⟨2, ![N, D]⟩ ⟨2, ![E, 1]⟩ ⟨2, ![E, D]⟩ [1] [0] [] [0] [] 1 ![1, D]}
    (hd : d = rowsGatherDims N E D wf)
    (x : (⟨2, ![N, D]⟩ : Shape).Idx → α) (idx : IVec ⟨2, ![E, 1]⟩ w) (j : (⟨2, ![E, D]⟩ : Shape).Idx) :
    Host.gather d x idx j
      = x (ix2 (⟨min (idx (ix2 (j 0 : Fin E) (0 : Fin 1))).toInt.toNat (N - 1), by omega⟩ : Fin N) (j 1 : Fin D)) := by
  subst hd; exact gather_rows_apply hN wf x idx j

/-- The same at explicit coordinates `(e, k)`. -/
theorem gather_rows_apply_ix2_of_eq {N E D w : Nat} (hN : 0 < N)
    (d : GatherDims ⟨2, ![N, D]⟩ ⟨2, ![E, 1]⟩ ⟨2, ![E, D]⟩)
    {wf : GatherDims.WF ⟨2, ![N, D]⟩ ⟨2, ![E, 1]⟩ ⟨2, ![E, D]⟩ [1] [0] [] [0] [] 1 ![1, D]}
    (hd : d = rowsGatherDims N E D wf)
    (x : (⟨2, ![N, D]⟩ : Shape).Idx → α) (idx : IVec ⟨2, ![E, 1]⟩ w) (e : Fin E) (k : Fin D) :
    Host.gather d x idx (ix2 e k)
      = x (ix2 (⟨min (idx (ix2 e (0 : Fin 1))).toInt.toNat (N - 1), by omega⟩ : Fin N) k) := by
  subst hd; exact gather_rows_apply_ix2 hN wf x idx e k

end RowsGather

/-! ## Flat gather: `x[idx]` of a flat `[N]` array at `[E, 1]` start indices -/

section FlatGather
variable {α : Type}

/-- The dimension numbers of a flat gather: operand `[N]`, start indices `[E, 1]`, result `[E]`; no offset axis,
    the operand's one axis collapsed and named by the start index, the index vector along start-indices axis 1, and
    a slice is one element (`slice_sizes = [1]`). -/
abbrev flatGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `j = (e)`: the array at position `idx[e, 0]`, read as a signed integer and clamped into
    `[0, N − 1]`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (flatGatherDims N E wf) x idx j
      = x (ix1 (⟨min (idx (ix2 (j 0 : Fin E) (0 : Fin 1))).toInt.toNat (N - 1), by omega⟩ : Fin N)) := by
  unfold Host.gather
  congr 1
  funext a
  obtain rfl : a = 0 := Subsingleton.elim _ _
  refine Fin.ext ?_
  show (flatGatherDims N E wf).start j idx 0 + (flatGatherDims N E wf).batchCoord j 0
    + (flatGatherDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N E wf).startIndexMap from List.mem_singleton.mpr rfl)]
  have hsi : (flatGatherDims N E wf).siIdx j ⟨List.idxOf (0 : Fin 1) (flatGatherDims N E wf).startIndexMap,
      List.idxOf_lt_length_iff.2 (List.mem_singleton.mpr rfl)⟩ = ix2 (j 0 : Fin E) (0 : Fin 1) := by
    funext b; refine Fin.ext ?_
    match b with
    | ⟨0, _⟩ => rfl
    | ⟨1, _⟩ => rfl
  rw [hsi]
  rfl

/-- The flat gather read at an explicit coordinate `e`. -/
theorem gather_flat_apply_ix1 {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGatherDims N E wf) x idx (ix1 e)
      = x (ix1 (⟨min (idx (ix2 e (0 : Fin 1))).toInt.toNat (N - 1), by omega⟩ : Fin N)) :=
  gather_flat_apply hN wf x idx (ix1 e)

/-- The flat gather read at `e`, for ANY record `d` of dimension numbers that is `flatGatherDims` (`hd` closes by
    `rfl` on a literal record); the left side mentions `d` itself. -/
theorem gather_flat_apply_ix1_of_eq {N E w : Nat} (hN : 0 < N)
    (d : GatherDims ⟨1, ![N]⟩ ⟨2, ![E, 1]⟩ ⟨1, ![E]⟩)
    {wf : GatherDims.WF ⟨1, ![N]⟩ ⟨2, ![E, 1]⟩ ⟨1, ![E]⟩ [] [0] [] [0] [] 1 ![1]}
    (hd : d = flatGatherDims N E wf)
    (x : (⟨1, ![N]⟩ : Shape).Idx → α) (idx : IVec ⟨2, ![E, 1]⟩ w) (e : Fin E) :
    Host.gather d x idx (ix1 e)
      = x (ix1 (⟨min (idx (ix2 e (0 : Fin 1))).toInt.toNat (N - 1), by omega⟩ : Fin N)) := by
  subst hd; exact gather_flat_apply_ix1 hN wf x idx e

end FlatGather

/-! ## Rows scatter: update rows `[E, D]` added into an `[N, D]` operand at `[E, 1]` scatter indices -/

section RowsScatter

/-- An axis is among the kept ones exactly when it is not in the list that was dropped. -/
theorem mem_kept {s : Shape} (axes : List (Fin s.rank)) (a : Fin s.rank) : a ∈ s.kept axes ↔ a ∉ axes := by
  simp [Shape.kept, List.mem_filter, List.mem_finRange]

/-- WHERE AN UPDATE LANDS, for any scatter dimension numbers: update index `j` lands at operand index `i` exactly
    when on every operand axis the signed start plus the window coordinate is `i`'s coordinate. (The in-range
    test inside `resultIdx?` is then automatic, `i`'s coordinates being in range.) -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      exact (Int.toNat_of_nonneg (h a).1).symm
    · intro H
      funext a
      apply Fin.ext
      show (d.start j idx a + (d.window j a : Int)).toNat = (i a).val
      rw [H a, Int.toNat_natCast]
  · rename_i h
    constructor
    · intro hh; cases hh
    · intro H
      exfalso
      apply h
      intro a
      rw [H a]
      exact ⟨Int.natCast_nonneg _, by exact_mod_cast (i a).isLt⟩

/-- The dimension numbers of a rows scatter: operand `[N, D]`, scatter indices `[E, 1]`, updates `[E, D]`; the
    updates' axis 1 is the window axis, operand axis 0 is inserted and is the one the scatter index names, and the
    index vector lies along scatter-indices axis 1. -/
abbrev rowsScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

/-- On the row axis the window of update `(e, k)` starts at the scatter index `idx[e, 0]`, read signed. -/
theorem scatter_rows_start0 (idx : IVec ⟨2, ![E, 1]⟩ w) (j : (⟨2, ![E, D]⟩ : Shape).Idx) :
    (rowsScatterDims N E D wf).start j idx 0 = (idx (ix2 (j 0 : Fin E) (0 : Fin 1))).toInt := by
  unfold ScatterDims.start
  rw [dif_pos (show (0 : Fin 2) ∈ (rowsScatterDims N E D wf).scatterDimsToOperandDims from
    List.mem_singleton.mpr rfl)]
  have hsi : (rowsScatterDims N E D wf).siIdx j
      ⟨List.idxOf (0 : Fin 2) (rowsScatterDims N E D wf).scatterDimsToOperandDims,
        List.idxOf_lt_length_iff.2 (List.mem_singleton.mpr rfl)⟩ = ix2 (j 0 : Fin E) (0 : Fin 1) := by
    funext b; refine Fin.ext ?_
    match b with
    | ⟨0, _⟩ => rfl
    | ⟨1, _⟩ => rfl
  rw [hsi]
  rfl

/-- On the column axis the window starts at `0`: the scatter index does not name that axis. -/
theorem scatter_rows_start1 (idx : IVec ⟨2, ![E, 1]⟩ w) (j : (⟨2, ![E, D]⟩ : Shape).Idx) :
    (rowsScatterDims N E D wf).start j idx 1 = 0 := by
  unfold ScatterDims.start
  rw [dif_neg (show (1 : Fin 2) ∉ (rowsScatterDims N E D wf).scatterDimsToOperandDims from
    (show (1 : Fin 2) ∉ [(0 : Fin 2)] by decide))]

/-- The row axis is inserted: the window coordinate on it is `0`. -/
theorem scatter_rows_window0 (j : (⟨2, ![E, D]⟩ : Shape).Idx) :
    (rowsScatterDims N E D wf).window j 0 = 0 := by
  unfold ScatterDims.window
  rw [dif_neg (show (0 : Fin 2) ∉ (rowsScatterDims N E D wf).sKept from
    fun h => (mem_kept _ _).mp h (List.mem_singleton.mpr rfl))]

/-- The window coordinate on the column axis is the update's column. -/
theorem scatter_rows_window1 (j : (⟨2, ![E, D]⟩ : Shape).Idx) :
    (rowsScatterDims N E D wf).window j 1 = (j 1).val := by
  unfold ScatterDims.window
  rw [dif_pos (show (1 : Fin 2) ∈ (rowsScatterDims N E D wf).sKept from
    (mem_kept _ _).mpr (show (1 : Fin 2) ∉ [(0 : Fin 2)] by decide))]
  rfl

/-- WHERE A ROW UPDATE LANDS: update element `(e, k)` lands at operand element `(n, k')` exactly when the scatter
    index `idx[e, 0]`, read as a signed integer, is `n`, and the columns agree. An index outside `[0, N)` lands
    nowhere. -/
theorem scatter_rows_resultIdx?_iff (idx : IVec ⟨2, ![E, 1]⟩ w) (e : Fin E) (k : Fin D) (n : Fin N) (k' : Fin D) :
    (rowsScatterDims N E D wf).resultIdx? (ix2 e k) idx = some (ix2 n k')
      ↔ (idx (ix2 e (0 : Fin 1))).toInt = (n.val : Int) ∧ k = k' := by
  rw [resultIdx?_eq_some_iff]
  have hs0 : (rowsScatterDims N E D wf).start (ix2 e k) idx 0 = (idx (ix2 e (0 : Fin 1))).toInt :=
    scatter_rows_start0 wf idx (ix2 e k)
  have hs1 := scatter_rows_start1 wf idx (ix2 e k)
  have hw0 := scatter_rows_window0 (N := N) wf (ix2 e k)
  have hw1 : (rowsScatterDims N E D wf).window (ix2 e k) 1 = k.val := scatter_rows_window1 (N := N) wf (ix2 e k)
  constructor
  · intro H
    have H0 : (rowsScatterDims N E D wf).start (ix2 e k) idx 0
        + ((rowsScatterDims N E D wf).window (ix2 e k) 0 : Int) = (n.val : Int) := H 0
    have H1 : (rowsScatterDims N E D wf).start (ix2 e k) idx 1
        + ((rowsScatterDims N E D wf).window (ix2 e k) 1 : Int) = (k'.val : Int) := H 1
    rw [hs0, hw0] at H0
    rw [hs1, hw1] at H1
    refine ⟨by simpa using H0, Fin.ext ?_⟩
    have : (k.val : Int) = (k'.val : Int) := by simpa using H1
    exact_mod_cast this
  · rintro ⟨hI, rfl⟩ a
    match a with
    | ⟨0, _⟩ =>
      show (rowsScatterDims N E D wf).start (ix2 e k) idx 0
        + ((rowsScatterDims N E D wf).window (ix2 e k) 0 : Int) = (n.val : Int)
      rw [hs0, hw0, hI]; simp
    | ⟨1, _⟩ =>
      show (rowsScatterDims N E D wf).start (ix2 e k) idx 1
        + ((rowsScatterDims N E D wf).window (ix2 e k) 1 : Int) = (k.val : Int)
      rw [hs1, hw1]; simp

/-- THE IDEAL SCATTER-ADD OF ROWS READ AT `(n, k)`: the operand's element plus the sum, over the update rows `e`
    whose scatter index `idx[e, 0]` (read as a signed integer) is `n`, of the update's element `(e, k)`. The
    update elements that land at `(n, k)` are exactly the `(e, k)` with `idx[e, 0] = n`, one per such row. -/
theorem hostScatterAdd_rows_apply (x : (⟨2, ![N, D]⟩ : Shape).Idx → EReal) (idx : IVec ⟨2, ![E, 1]⟩ w)
    (upd : (⟨2, ![E, D]⟩ : Shape).Idx → EReal) (n : Fin N) (k : Fin D) :
    Ideal.hostScatterAdd (rowsScatterDims N E D wf) x idx upd (ix2 n k)
      = x (ix2 n k) + ∑ e ∈ Finset.univ.filter (fun e : Fin E => (idx (ix2 e (0 : Fin 1))).toInt = (n.val : Int)),
          upd (ix2 e k) := by
  unfold Ideal.hostScatterAdd
  congr 1
  symm
  apply Finset.sum_bij (fun (e : Fin E) _ => (ix2 e k : (⟨2, ![E, D]⟩ : Shape).Idx))
  · intro e he
    rw [Finset.mem_filter] at he ⊢
    exact ⟨Finset.mem_univ _, (scatter_rows_resultIdx?_iff wf idx e k n k).mpr ⟨he.2, rfl⟩⟩
  · intro e₁ _ e₂ _ h
    exact congrFun h 0
  · intro j hj
    rw [Finset.mem_filter] at hj
    obtain ⟨e, k₀, rfl⟩ : ∃ (e : Fin E) (k₀ : Fin D), j = ix2 e k₀ := ⟨j 0, j 1, eq_ix2 j⟩
    obtain ⟨hI, rfl⟩ := (scatter_rows_resultIdx?_iff wf idx e k₀ n k).mp hj.2
    exact ⟨e, Finset.mem_filter.mpr ⟨Finset.mem_univ _, hI⟩, rfl⟩
  · intro e _
    rfl

/-- Where a row update lands, for ANY record `d` of dimension numbers that is `rowsScatterDims` (the side
    condition `hd` closes by `rfl` on a literal record); the left side mentions `d` itself. -/
theorem scatter_rows_resultIdx?_iff_of_eq (d : ScatterDims ⟨2, ![N, D]⟩ ⟨2, ![E, 1]⟩ ⟨2, ![E, D]⟩)
    {wf : ScatterDims.WF ⟨2, ![N, D]⟩ ⟨2, ![E, 1]⟩ ⟨2, ![E, D]⟩ [1] [0] [0] 1}
    (hd : d = rowsScatterDims N E D wf)
    (idx : IVec ⟨2, ![E, 1]⟩ w) (e : Fin E) (k : Fin D) (n : Fin N) (k' : Fin D) :
    d.resultIdx? (ix2 e k) idx = some (ix2 n k')
      ↔ (idx (ix2 e (0 : Fin 1))).toInt = (n.val : Int) ∧ k = k' := by
  subst hd; exact scatter_rows_resultIdx?_iff wf idx e k n k'

/-- The ideal scatter-add of rows read at `(n, k)`, for ANY record `d` of dimension numbers that is
    `rowsScatterDims` (`hd` closes by `rfl` on a literal record); the left side mentions `d` itself, so the
    lemma rewrites a goal that names the record. -/
theorem hostScatterAdd_rows_apply_of_eq (d : ScatterDims ⟨2, ![N, D]⟩ ⟨2, ![E, 1]⟩ ⟨2, ![E, D]⟩)
    {wf : ScatterDims.WF ⟨2, ![N, D]⟩ ⟨2, ![E, 1]⟩ ⟨2, ![E, D]⟩ [1] [0] [0] 1}
    (hd : d = rowsScatterDims N E D wf)
    (x : (⟨2, ![N, D]⟩ : Shape).Idx → EReal) (idx : IVec ⟨2, ![E, 1]⟩ w)
    (upd : (⟨2, ![E, D]⟩ : Shape).Idx → EReal) (n : Fin N) (k : Fin D) :
    Ideal.hostScatterAdd d x idx upd (ix2 n k)
      = x (ix2 n k) + ∑ e ∈ Finset.univ.filter (fun e : Fin E => (idx (ix2 e (0 : Fin 1))).toInt = (n.val : Int)),
          upd (ix2 e k) := by
  subst hd; exact hostScatterAdd_rows_apply wf x idx upd n k

end RowsScatter

end Cert.Lib.GatherScatter

end
-- ==== Proof.LibSortRank1.lean ====
/-
  A TWO-OPERAND SORT OF A RANK-1 TABLE READ AT A POSITION. `stablehlo.sort` of a key table `x` carrying a second
  table `y` along (an argsort, when `y` is an iota) permutes both by ONE self-map of the positions: position `j` of
  either result holds the entry at position `sortedFrom R j`, where `R k k'` says the pair at `k` sorts before the
  pair at `k'`. That self-map is a bijection (the library's `sortedFrom_surjective` / `sortedFrom_injective`).
  Generic in the length, the entry types and the comparator.
-/
import Idealize.ShloMosaic.Lib.SortFacts

namespace Cert.Lib.SortRank1

open Idealize.ShloMosaic

/-- The relation a two-operand sort orders the positions of a rank-1 table by. -/
def before2 {n : Nat} {α β : Type} (cmp : α × β → α × β → BitVec 1) (x : (⟨1, ![n]⟩ : Shape).Idx → α)
    (y : (⟨1, ![n]⟩ : Shape).Idx → β) (k k' : Fin n) : Bool :=
  cmp (x (Shape.Idx.ofFin k), y (Shape.Idx.ofFin k)) (x (Shape.Idx.ofFin k'), y (Shape.Idx.ofFin k')) == 1#1

/-- The sorted keys at position `j`: the key at position `sortedFrom (before2 …) j`. -/
theorem sort2_fst_apply {n : Nat} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).1 j = x (Shape.Idx.ofFin (sortedFrom (before2 cmp x y) (j 0))) := by
  unfold Host.sort2 before2
  simp

/-- The carried table at position `j`: its entry at position `sortedFrom (before2 …) j`. -/
theorem sort2_snd_apply {n : Nat} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j = y (Shape.Idx.ofFin (sortedFrom (before2 cmp x y) (j 0))) := by
  unfold Host.sort2 before2
  simp

end Cert.Lib.SortRank1
-- ==== Proof.TablesBits.lean ====
/-
  The two prefetched tables of the pallas_call, read off the launch memory, for any float instance.

  The host clamps each category word into 0 … 15 (`clipped`), sorts the clamped words stably carrying an iota along,
  and keeps the permuted iota: table 0, the ORDER, holds at position `j` the word of `order j`, where `order` is the
  sorting permutation of the 64 positions — a bijection. Table 1, the SORTED CATEGORIES, is the clamped words gathered
  at the order: position `j` holds the clamped category of sample `order j` (the order's words are non-negative and
  below 64, so the gather's wrap of negative indices and its clamp leave them).
  Hence every order word is below 64 and every category word below 16, which is all the pipeline's side condition
  asks: each window's block, at the tables' words, lies inside its array.
-/
import proofs.«134743_j4741643895621_2_alg».proof.Proof.Gen.Kernel.Frame
import proofs.«134743_j4741643895621_2_alg».proof.Proof.Words
import proofs.«134743_j4741643895621_2_alg».proof.Proof.LibGatherScatter
import proofs.«134743_j4741643895621_2_alg».proof.Proof.LibSortRank1
import Idealize.ShloMosaic.Lib.StableHlo.Run
import Idealize.ShloMosaic.Lib.SortFacts
import Idealize.ShloMosaic.Lib.ValueIdx
import Idealize.ShloMosaic.Lib.Pipeline.Value

set_option maxRecDepth 16384

noncomputable section

namespace Cert.Kernel.Tables

open Cert.Kernel Cert.Kernel.Gen
open Idealize.ShloMosaic Idealize.ShloMosaic.TcCoe Idealize.SL.Sem Idealize.ShloMosaic.StableHlo
open Idealize.ShloMosaic.ValueIdx
open Cert.CatLinear Cert.Lib.SortRank1 Cert.Lib.GatherScatter

variable {F : FTy → Type} [FloatOps F]
variable (m : (ℓ : Loc nD τ sig) → Buf (Elt F) ℓ)

/-! ## The host's values -/

/-- The category words as launched. -/
abbrev catw : IVec S64 32 := m (((0 : Dev nD) : Thread nD τ).loc main_arg1)

/-- The category words clamped into 0 … 15, as the host computes them. -/
def clipped : IVec S64 32 :=
  minsi (broadcastInDim S64 ![] bcast_S_S64 (constantI S_ 32 15#32))
    (maxsi (broadcastInDim S64 ![] bcast_S_S64 (constantI S_ 32 0#32)) (catw m))

theorem clipped_apply (i : S64.Idx) : clipped m i = clip (catw m i) := rfl

/-- The sorting permutation of the 64 positions: the stable sort of the clamped words puts the sample `order j` at
    position `j`. -/
def order : Fin 64 → Fin 64 :=
  sortedFrom (before2 comparator_i32_i32_d0 (clipped m) (iotaInDim S64 32 0))

theorem order_surjective : Function.Surjective (order m) := by
  unfold order; exact sortedFrom_surjective _
theorem order_injective : Function.Injective (order m) := by
  unfold order; exact sortedFrom_injective _

/-- The permuted iota: the second result of the sort. -/
def sortedIota : IVec S64 32 := (Host.sort2 S64 0 comparator_i32_i32_d0 (clipped m) (iotaInDim S64 32 0)).2

/-- Position `j` of the permuted iota holds the word of `order j`. -/
theorem sortedIota_apply (j : S64.Idx) : sortedIota m j = BitVec.ofNat 32 (order m (j 0)).val := by
  unfold sortedIota order
  rw [sort2_snd_apply]
  generalize sortedFrom (before2 comparator_i32_i32_d0 (clipped m) (iotaInDim S64 32 0)) (j 0) = k
  rfl

-- from here on the permutation is used through its three facts only
attribute [irreducible] order

/-- The start indices of the host's gather of the clamped words: the permuted iota, negative words wrapped by 64. -/
def gatherStarts : IVec S64x1 32 :=
  broadcastInDim S64x1 ![0] bcast_S64_S64x1_0
    (select (cmpi .slt (sortedIota m) (broadcastInDim S64 ![] bcast_S_S64 (constantI S_ 32 0#32)))
      (addi (sortedIota m) (broadcastInDim S64 ![] bcast_S_S64 (constantI S_ 32 64#32))) (sortedIota m))

/-- No word of the permuted iota is negative, so the wrap leaves it: start index `(e, 0)` is the word of `order e`. -/
theorem gatherStarts_apply (e : Fin 64) : gatherStarts m (ix2 e (0 : Fin 1)) = BitVec.ofNat 32 (order m e).val := by
  unfold gatherStarts
  rw [broadcastInDim_apply _ bcast_S64_S64x1_0 _ _ (ix1 e) (fun a => by
    obtain rfl : a = 0 := Subsingleton.elim _ _
    show e.val = if (64 : Nat) = 1 then 0 else e.val
    rw [if_neg (by decide)])]
  rw [select_apply]
  have hs : sortedIota m (ix1 e) = BitVec.ofNat 32 (order m e).val := sortedIota_apply m (ix1 e)
  have hc : cmpi .slt (sortedIota m) (broadcastInDim S64 ![] bcast_S_S64 (constantI S_ 32 0#32)) (ix1 e)
      = IntOp.cmpi .slt (sortedIota m (ix1 e)) 0#32 := rfl
  rw [hc, hs, ofNat_not_neg _ (order m e).isLt, select_zero]

/-! ## The tables -/

set_option maxHeartbeats 1000000 in
/-- Table 0 is the permuted iota. -/
theorem tbl0_eq : tbl m 0 = sortedIota m := by
  unfold tbl
  show V m 0 main_v1 = _
  dsimp only [V]
  simp only [hostOps0, hostOps0_1, hostOps0_2, hostOps0_3, List.flatten_cons, List.flatten_nil, List.append_nil,
    List.cons_append, List.nil_append]
  after_results
  rfl

set_option maxHeartbeats 2000000 in
/-- Table 1 is the clamped words gathered at the wrapped permuted iota. -/
theorem tbl1_eq : tbl m 1 = Host.gather gather_S64_S64x1_S64_n_0_n_n_0_1_1 (clipped m) (gatherStarts m) := by
  unfold tbl
  show V m 0 main_v8 = _
  dsimp only [V]
  simp only [hostOps0, hostOps0_1, hostOps0_2, hostOps0_3, List.flatten_cons, List.flatten_nil, List.append_nil,
    List.cons_append, List.nil_append]
  after_results
  rfl

/-- THE ORDER TABLE at position `e`: the word of `order e`. -/
theorem tbl0_apply (e : Fin 64) : tbl m 0 (ix1 e) = BitVec.ofNat 32 (order m e).val := by
  rw [tbl0_eq]; exact sortedIota_apply m (ix1 e)

/-- THE CATEGORY TABLE at position `e`: the clamped category of sample `order e`. -/
theorem tbl1_apply (e : Fin 64) : tbl m 1 (ix1 e) = clip (catw m (ix1 (order m e))) := by
  rw [tbl1_eq]
  refine (gather_flat_apply_ix1_of_eq (by decide) gather_S64_S64x1_S64_n_0_n_n_0_1_1 rfl (clipped m) (gatherStarts m) e).trans ?_
  rw [clipped_apply]
  refine congrArg (fun p : Fin 64 => clip (catw m (ix1 p))) (Fin.ext ?_)
  show min (gatherStarts m (ix2 e (0 : Fin 1))).toInt.toNat (64 - 1) = (order m e).val
  rw [gatherStarts_apply]
  generalize order m e = k
  rw [ofNat_toInt_toNat _ k.isLt]
  have := k.isLt
  omega

/-- The order table's word at position `e`, read unsigned, is the sample `order e`. -/
theorem order_word (e : Fin 64) : (tbl m 0 (ix1 e)).toNat = (order m e).val := by
  rw [tbl0_apply]
  generalize order m e = k
  exact ofNat_toNat _ k.isLt

/-- The category table's word at position `e`, read unsigned, is the category word of sample `order e` read signed
    and clamped into 0 … 15. -/
theorem cat_word (e : Fin 64) : (tbl m 1 (ix1 e)).toNat = min (catw m (ix1 (order m e))).toInt.toNat 15 := by
  rw [tbl1_apply, clip_toNat]

theorem tbl0_lt (e : Fin 64) : (tbl m 0 (ix1 e)).toNat < 64 := by
  rw [tbl0_apply]
  generalize order m e = k
  rw [ofNat_toNat _ k.isLt]; exact k.isLt

theorem tbl1_lt (e : Fin 64) : (tbl m 1 (ix1 e)).toNat < 16 := by
  rw [tbl1_apply]; exact clip_lt _

/-! ## The pipeline's side condition -/

/-- For ANY contents of the two tables whose order words are below 64 and whose category words are below 16, every
    window's block lies inside its array at every grid point: the x block `(order word, 0, 0)` of 64 blocks, the
    W block `(category word, 0, n)` of 16 × 1 × 4, the bias block likewise, the output block `(order word, 0, n)` of
    64 × 1 × 4, with `n < 4` the first grid coordinate. The transfers move 32-bit elements. -/
theorem ok_of_bounds (pf : pre0.Contents (Elt F)) (h0 : ∀ x, (pf 0 x).toNat < 64) (h1 : ∀ x, (pf 1 x).toNat < 16) :
    ok0 (F := F) pf := by
  refine ⟨fun i => ?_, fun i => ?_, fun i => ?_, fun i => ?_⟩
  · obtain ⟨w, hw, e⟩ : ∃ w : BitVec 32, w.toNat < 64 ∧
        cc0_transform_0 k0_off1_inb numel1_S1 pf i = ![w.toNat, 0, 0] := ⟨_, h0 _, rfl⟩
    refine ⟨fun a => ?_, Or.inl rfl⟩
    rw [e]
    fin_cases a <;> simp [S1x512x1024, S64x512x1024] <;> omega
  · have hn : (i 0).val < 4 := (i 0).isLt
    obtain ⟨w, hw, e⟩ : ∃ w : BitVec 32, w.toNat < 16 ∧
        cc0_transform_1 k0_off1_inb numel1_S1 pf i = ![w.toNat, 0, (BitVec.ofNat 32 (i 0).val).toNat] := ⟨_, h1 _, rfl⟩
    refine ⟨fun a => ?_, Or.inl rfl⟩
    rw [e, BitVec.toNat_ofNat]
    fin_cases a <;> simp [S1x1024x1024, S16x1024x4096] <;> omega
  · have hn : (i 0).val < 4 := (i 0).isLt
    obtain ⟨w, hw, e⟩ : ∃ w : BitVec 32, w.toNat < 16 ∧
        cc0_transform_2 k0_off1_inb numel1_S1 pf i = ![w.toNat, 0, (BitVec.ofNat 32 (i 0).val).toNat] := ⟨_, h1 _, rfl⟩
    refine ⟨fun a => ?_, Or.inl rfl⟩
    rw [e, BitVec.toNat_ofNat]
    fin_cases a <;> simp [S1x1x1024, S16x1x4096] <;> omega
  · have hn : (i 0).val < 4 := (i 0).isLt
    obtain ⟨w, hw, e⟩ : ∃ w : BitVec 32, w.toNat < 64 ∧
        cc0_transform_3 k0_off1_inb numel1_S1 pf i = ![w.toNat, 0, (BitVec.ofNat 32 (i 0).val).toNat] := ⟨_, h0 _, rfl⟩
    refine ⟨fun a => ?_, Or.inl rfl⟩
    rw [e, BitVec.toNat_ofNat]
    fin_cases a <;> simp [S1x512x1024, S64x512x4096] <;> omega

/-- THE SIDE CONDITION HOLDS of the tables the host computes, whatever the inputs. -/
theorem ok : Ok m :=
  ok_of_bounds (tbl m)
    (fun (x : S64.Idx) => by rw [eq_ix1 x]; exact tbl0_lt m (x 0))
    (fun (x : S64.Idx) => by rw [eq_ix1 x]; exact tbl1_lt m (x 0))

end Cert.Kernel.Tables

end
-- ==== Proof.TablesIdeal.lean ====
/-
  The two prefetched tables of the pallas_call, read off the launch memory, for any float instance.

  The host clamps each category word into 0 … 15 (`clipped`), sorts the clamped words stably carrying an iota along,
  and keeps the permuted iota: table 0, the ORDER, holds at position `j` the word of `order j`, where `order` is the
  sorting permutation of the 64 positions — a bijection. Table 1, the SORTED CATEGORIES, is the clamped words gathered
  at the order: position `j` holds the clamped category of sample `order j` (the order's words are non-negative and
  below 64, so the gather's wrap of negative indices and its clamp leave them).
  Hence every order word is below 64 and every category word below 16, which is all the pipeline's side condition
  asks: each window's block, at the tables' words, lies inside its array.
-/
import proofs.«134743_j4741643895621_2_alg».proof.Proof.Gen.KernelIdeal.Frame
import proofs.«134743_j4741643895621_2_alg».proof.Proof.Words
import proofs.«134743_j4741643895621_2_alg».proof.Proof.LibGatherScatter
import proofs.«134743_j4741643895621_2_alg».proof.Proof.LibSortRank1
import Idealize.ShloMosaic.Lib.StableHlo.Run
import Idealize.ShloMosaic.Lib.SortFacts
import Idealize.ShloMosaic.Lib.ValueIdx
import Idealize.ShloMosaic.Lib.Pipeline.Value

set_option maxRecDepth 16384

noncomputable section

namespace Cert.KernelIdeal.Tables

open Cert.KernelIdeal Cert.KernelIdeal.Gen
open Idealize.ShloMosaic Idealize.ShloMosaic.TcCoe Idealize.SL.Sem Idealize.ShloMosaic.StableHlo
open Idealize.ShloMosaic.ValueIdx
open Cert.CatLinear Cert.Lib.SortRank1 Cert.Lib.GatherScatter

variable {F : FTy → Type} [FloatOps F]
variable (m : (ℓ : Loc nD τ sig) → Buf (Elt F) ℓ)

/-! ## The host's values -/

/-- The category words as launched. -/
abbrev catw : IVec S64 32 := m (((0 : Dev nD) : Thread nD τ).loc main_arg1)

/-- The category words clamped into 0 … 15, as the host computes them. -/
def clipped : IVec S64 32 :=
  minsi (broadcastInDim S64 ![] bcast_S_S64 (constantI S_ 32 15#32))
    (maxsi (broadcastInDim S64 ![] bcast_S_S64 (constantI S_ 32 0#32)) (catw m))

theorem clipped_apply (i : S64.Idx) : clipped m i = clip (catw m i) := rfl

/-- The sorting permutation of the 64 positions: the stable sort of the clamped words puts the sample `order j` at
    position `j`. -/
def order : Fin 64 → Fin 64 :=
  sortedFrom (before2 comparator_i32_i32_d0 (clipped m) (iotaInDim S64 32 0))

theorem order_surjective : Function.Surjective (order m) := by
  unfold order; exact sortedFrom_surjective _
theorem order_injective : Function.Injective (order m) := by
  unfold order; exact sortedFrom_injective _

/-- The permuted iota: the second result of the sort. -/
def sortedIota : IVec S64 32 := (Host.sort2 S64 0 comparator_i32_i32_d0 (clipped m) (iotaInDim S64 32 0)).2

/-- Position `j` of the permuted iota holds the word of `order j`. -/
theorem sortedIota_apply (j : S64.Idx) : sortedIota m j = BitVec.ofNat 32 (order m (j 0)).val := by
  unfold sortedIota order
  rw [sort2_snd_apply]
  generalize sortedFrom (before2 comparator_i32_i32_d0 (clipped m) (iotaInDim S64 32 0)) (j 0) = k
  rfl

-- from here on the permutation is used through its three facts only
attribute [irreducible] order

/-- The start indices of the host's gather of the clamped words: the permuted iota, negative words wrapped by 64. -/
def gatherStarts : IVec S64x1 32 :=
  broadcastInDim S64x1 ![0] bcast_S64_S64x1_0
    (select (cmpi .slt (sortedIota m) (broadcastInDim S64 ![] bcast_S_S64 (constantI S_ 32 0#32)))
      (addi (sortedIota m) (broadcastInDim S64 ![] bcast_S_S64 (constantI S_ 32 64#32))) (sortedIota m))

/-- No word of the permuted iota is negative, so the wrap leaves it: start index `(e, 0)` is the word of `order e`. -/
theorem gatherStarts_apply (e : Fin 64) : gatherStarts m (ix2 e (0 : Fin 1)) = BitVec.ofNat 32 (order m e).val := by
  unfold gatherStarts
  rw [broadcastInDim_apply _ bcast_S64_S64x1_0 _ _ (ix1 e) (fun a => by
    obtain rfl : a = 0 := Subsingleton.elim _ _
    show e.val = if (64 : Nat) = 1 then 0 else e.val
    rw [if_neg (by decide)])]
  rw [select_apply]
  have hs : sortedIota m (ix1 e) = BitVec.ofNat 32 (order m e).val := sortedIota_apply m (ix1 e)
  have hc : cmpi .slt (sortedIota m) (broadcastInDim S64 ![] bcast_S_S64 (constantI S_ 32 0#32)) (ix1 e)
      = IntOp.cmpi .slt (sortedIota m (ix1 e)) 0#32 := rfl
  rw [hc, hs, ofNat_not_neg _ (order m e).isLt, select_zero]

/-! ## The tables -/

set_option maxHeartbeats 1000000 in
/-- Table 0 is the permuted iota. -/
theorem tbl0_eq : tbl m 0 = sortedIota m := by
  unfold tbl
  show V m 0 main_v1 = _
  dsimp only [V]
  simp only [hostOps0, hostOps0_1, hostOps0_2, hostOps0_3, List.flatten_cons, List.flatten_nil, List.append_nil,
    List.cons_append, List.nil_append]
  after_results
  rfl

set_option maxHeartbeats 2000000 in
/-- Table 1 is the clamped words gathered at the wrapped permuted iota. -/
theorem tbl1_eq : tbl m 1 = Host.gather gather_S64_S64x1_S64_n_0_n_n_0_1_1 (clipped m) (gatherStarts m) := by
  unfold tbl
  show V m 0 main_v8 = _
  dsimp only [V]
  simp only [hostOps0, hostOps0_1, hostOps0_2, hostOps0_3, List.flatten_cons, List.flatten_nil, List.append_nil,
    List.cons_append, List.nil_append]
  after_results
  rfl

/-- THE ORDER TABLE at position `e`: the word of `order e`. -/
theorem tbl0_apply (e : Fin 64) : tbl m 0 (ix1 e) = BitVec.ofNat 32 (order m e).val := by
  rw [tbl0_eq]; exact sortedIota_apply m (ix1 e)

/-- THE CATEGORY TABLE at position `e`: the clamped category of sample `order e`. -/
theorem tbl1_apply (e : Fin 64) : tbl m 1 (ix1 e) = clip (catw m (ix1 (order m e))) := by
  rw [tbl1_eq]
  refine (gather_flat_apply_ix1_of_eq (by decide) gather_S64_S64x1_S64_n_0_n_n_0_1_1 rfl (clipped m) (gatherStarts m) e).trans ?_
  rw [clipped_apply]
  refine congrArg (fun p : Fin 64 => clip (catw m (ix1 p))) (Fin.ext ?_)
  show min (gatherStarts m (ix2 e (0 : Fin 1))).toInt.toNat (64 - 1) = (order m e).val
  rw [gatherStarts_apply]
  generalize order m e = k
  rw [ofNat_toInt_toNat _ k.isLt]
  have := k.isLt
  omega

/-- The order table's word at position `e`, read unsigned, is the sample `order e`. -/
theorem order_word (e : Fin 64) : (tbl m 0 (ix1 e)).toNat = (order m e).val := by
  rw [tbl0_apply]
  generalize order m e = k
  exact ofNat_toNat _ k.isLt

/-- The category table's word at position `e`, read unsigned, is the category word of sample `order e` read signed
    and clamped into 0 … 15. -/
theorem cat_word (e : Fin 64) : (tbl m 1 (ix1 e)).toNat = min (catw m (ix1 (order m e))).toInt.toNat 15 := by
  rw [tbl1_apply, clip_toNat]

theorem tbl0_lt (e : Fin 64) : (tbl m 0 (ix1 e)).toNat < 64 := by
  rw [tbl0_apply]
  generalize order m e = k
  rw [ofNat_toNat _ k.isLt]; exact k.isLt

theorem tbl1_lt (e : Fin 64) : (tbl m 1 (ix1 e)).toNat < 16 := by
  rw [tbl1_apply]; exact clip_lt _

/-! ## The pipeline's side condition -/

/-- For ANY contents of the two tables whose order words are below 64 and whose category words are below 16, every
    window's block lies inside its array at every grid point: the x block `(order word, 0, 0)` of 64 blocks, the
    W block `(category word, 0, n)` of 16 × 1 × 4, the bias block likewise, the output block `(order word, 0, n)` of
    64 × 1 × 4, with `n < 4` the first grid coordinate. The transfers move 32-bit elements. -/
theorem ok_of_bounds (pf : pre0.Contents (Elt F)) (h0 : ∀ x, (pf 0 x).toNat < 64) (h1 : ∀ x, (pf 1 x).toNat < 16) :
    ok0 (F := F) pf := by
  refine ⟨fun i => ?_, fun i => ?_, fun i => ?_, fun i => ?_⟩
  · obtain ⟨w, hw, e⟩ : ∃ w : BitVec 32, w.toNat < 64 ∧
        cc0_transform_0 k0_off1_inb numel1_S1 pf i = ![w.toNat, 0, 0] := ⟨_, h0 _, rfl⟩
    refine ⟨fun a => ?_, Or.inl rfl⟩
    rw [e]
    fin_cases a <;> simp [S1x512x1024, S64x512x1024] <;> omega
  · have hn : (i 0).val < 4 := (i 0).isLt
    obtain ⟨w, hw, e⟩ : ∃ w : BitVec 32, w.toNat < 16 ∧
        cc0_transform_1 k0_off1_inb numel1_S1 pf i = ![w.toNat, 0, (BitVec.ofNat 32 (i 0).val).toNat] := ⟨_, h1 _, rfl⟩
    refine ⟨fun a => ?_, Or.inl rfl⟩
    rw [e, BitVec.toNat_ofNat]
    fin_cases a <;> simp [S1x1024x1024, S16x1024x4096] <;> omega
  · have hn : (i 0).val < 4 := (i 0).isLt
    obtain ⟨w, hw, e⟩ : ∃ w : BitVec 32, w.toNat < 16 ∧
        cc0_transform_2 k0_off1_inb numel1_S1 pf i = ![w.toNat, 0, (BitVec.ofNat 32 (i 0).val).toNat] := ⟨_, h1 _, rfl⟩
    refine ⟨fun a => ?_, Or.inl rfl⟩
    rw [e, BitVec.toNat_ofNat]
    fin_cases a <;> simp [S1x1x1024, S16x1x4096] <;> omega
  · have hn : (i 0).val < 4 := (i 0).isLt
    obtain ⟨w, hw, e⟩ : ∃ w : BitVec 32, w.toNat < 64 ∧
        cc0_transform_3 k0_off1_inb numel1_S1 pf i = ![w.toNat, 0, (BitVec.ofNat 32 (i 0).val).toNat] := ⟨_, h0 _, rfl⟩
    refine ⟨fun a => ?_, Or.inl rfl⟩
    rw [e, BitVec.toNat_ofNat]
    fin_cases a <;> simp [S1x512x1024, S64x512x4096] <;> omega

/-- THE SIDE CONDITION HOLDS of the tables the host computes, whatever the inputs. -/
theorem ok : Ok m :=
  ok_of_bounds (tbl m)
    (fun (x : S64.Idx) => by rw [eq_ix1 x]; exact tbl0_lt m (x 0))
    (fun (x : S64.Idx) => by rw [eq_ix1 x]; exact tbl1_lt m (x 0))

end Cert.KernelIdeal.Tables

end
-- ==== Proof.Body.lean ====
/-
  What the kernel body stores, entry by entry, on the extended reals.

  The body loads one [1, 512, 1024] block of `x`, one [1, 1024, 1024] block of `W` and one [1, 1, 1024] block of the
  bias, drops the leading unit axes, changes the float format of the two matrix operands (the identity on extended
  reals), multiplies them into a zero accumulator, adds the bias row to every row of the product, and stores the
  result under a leading unit axis. So entry (0, r, c) of what it stores is

      Σ_k xblock[0, r, k] · Wblock[0, k, c]  +  bblock[0, 0, c].
-/
import proofs.«134743_j4741643895621_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Body

open Cert.KernelIdeal Cert.KernelIdeal.Gen
open Idealize.ShloMosaic Idealize.ShloMosaic.ValueIdx

/-- Where the tile product reads its operands: the left one at (row, contraction index), the right one at
    (contraction index, column). -/
theorem lhs0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem lhs1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The tile product at entry (r, c): the sum over the one contracted axis of row r of the left operand against
    column c of the right. -/
theorem tile_dot (A : FVec Ideal S512x1024 .bf16) (B : FVec Ideal S1024x1024 .bf16) (r : Fin 512) (c : Fin 1024) :
    matmul dot_S512x1024_S1024x1024_S512x1024_1_0_0_1_n_n none A B (constant (F := Ideal) S512x1024 .f32 0x00000000#32) (ix2 r c)
      = ∑ k : Fin 1024, A (ix2 r k) * B (ix2 k c) := by
  simp only [matmul]
  rw [Ideal.matmul_constant_zero_apply,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r c)
      ((contrEquiv1 dot_S512x1024_S1024x1024_S512x1024_1_0_0_1_n_n 1024 rfl rfl).symm k) = ix2 r k :=
    funext fun a => Fin.ext (by
      match a with
      | ⟨0, _⟩ => exact lhs0 _ _
      | ⟨1, _⟩ => exact (lhs1 _ _).trans hk)
  have er : dot_S512x1024_S1024x1024_S512x1024_1_0_0_1_n_n.rhsIdx (ix2 r c)
      ((contrEquiv1 dot_S512x1024_S1024x1024_S512x1024_1_0_0_1_n_n 1024 rfl rfl).symm k) = ix2 k c :=
    funext fun a => Fin.ext (by
      match a with
      | ⟨0, _⟩ => exact (rhs0 _ _).trans hk
      | ⟨1, _⟩ => exact rhs1 _ _)
  rw [el, er]

/-- THE STORED BLOCK at entry (0, r, c). -/
theorem pay_apply (x0 : Vec Ideal S1x512x1024 .f32) (x1 : Vec Ideal S1x1024x1024 .f32) (x2 : Vec Ideal S1x1x1024 .f32)
    (r : Fin 512) (c : Fin 1024) :
    k0_pay1 (F := Ideal) x0 x1 x2 (ix3 (0 : Fin 1) r c)
      = (∑ k : Fin 1024, x0 (ix3 (0 : Fin 1) r k) * x1 (ix3 (0 : Fin 1) k c)) + x2 (ix3 (0 : Fin 1) (0 : Fin 1) c) := by
  unfold k0_pay1
  refine (shapeCast_ab_1ab_apply _ shapeCasts_S512x1024_S1x512x1024 (0 : Fin 1) r c).trans ?_
  rw [addf_apply, tile_dot, broadcastTo_1b_ab_apply, shapeCast_1ab_ab_apply]
  refine congrArg (· + x2 (ix3 (0 : Fin 1) (0 : Fin 1) c)) (Finset.sum_congr rfl fun k _ => ?_)
  rw [truncf_apply, truncf_apply, shapeCast_1ab_ab_apply, shapeCast_1ab_ab_apply]

end Cert.KernelIdeal.Body

end
-- ==== Proof.Spec.lean ====
/-
  The function both programs compute. For a sample `s`, a row `r` and an output column `h`,

      out[s, r, h] = Σ_k x[s, r, k] · W[slab(cat[s]), k, h]  +  b[slab(cat[s]), h],

  where `slab w` is the category word `w` read as a signed integer and clamped into 0 … 15: the slab of
  the weight table (and the row of the bias table) that the sample's category selects. The sum is a finite
  sum of products of extended reals; the two programs form the same products and the same sum, so no
  finiteness of the inputs is used anywhere.
-/
import Idealize.ShloMosaic.PureOps.Ideal
import Idealize.ShloMosaic.Lib.ValueIdx

noncomputable section

open scoped BigOperators

namespace Cert.CatLinear

open Idealize.ShloMosaic Idealize.ShloMosaic.ValueIdx

/-- The slab a category word selects: the word read signed, clamped into 0 … 15. -/
def slab (w : BitVec 32) : Fin 16 := ⟨min w.toInt.toNat 15, Nat.lt_succ_of_le (Nat.min_le_right _ _)⟩

theorem slab_val (w : BitVec 32) : (slab w).val = min w.toInt.toNat 15 := rfl

/-- One entry of the result from its coordinates. -/
def entry (x : (⟨3, ![64, 512, 1024]⟩ : Shape).Idx → EReal) (cat : (⟨1, ![64]⟩ : Shape).Idx → BitVec 32)
    (W : (⟨3, ![16, 1024, 4096]⟩ : Shape).Idx → EReal) (b : (⟨2, ![16, 4096]⟩ : Shape).Idx → EReal)
    (s : Fin 64) (r : Fin 512) (h : Fin 4096) : EReal :=
  (∑ k : Fin 1024, x (ix3 s r k) * W (ix3 (slab (cat (ix1 s))) k h)) + b (ix2 (slab (cat (ix1 s))) h)

/-- The whole result array. -/
def result (x : (⟨3, ![64, 512, 1024]⟩ : Shape).Idx → EReal) (cat : (⟨1, ![64]⟩ : Shape).Idx → BitVec 32)
    (W : (⟨3, ![16, 1024, 4096]⟩ : Shape).Idx → EReal) (b : (⟨2, ![16, 4096]⟩ : Shape).Idx → EReal) :
    (⟨3, ![64, 512, 4096]⟩ : Shape).Idx → EReal :=
  fun i => entry x cat W b (i 0) (i 1) (i 2)

theorem result_ix3 (x : (⟨3, ![64, 512, 1024]⟩ : Shape).Idx → EReal) (cat : (⟨1, ![64]⟩ : Shape).Idx → BitVec 32)
    (W : (⟨3, ![16, 1024, 4096]⟩ : Shape).Idx → EReal) (b : (⟨2, ![16, 4096]⟩ : Shape).Idx → EReal)
    (s : Fin 64) (r : Fin 512) (h : Fin 4096) : result x cat W b (ix3 s r h) = entry x cat W b s r h := rfl

end Cert.CatLinear

end
-- ==== Proof.Blocks.lean ====
/-
  The array the idealized kernel leaves, as one function of its arguments.

  At grid point `t = (n, p)` (Dh-tile `n < 4`, position `p < 64` of the sorted order) the pipeline hands the body block
  `(o, 0, 0)` of `x`, block `(g, 0, n)` of `W` and block `(g, 0, n)` of the bias table, and writes the body's result
  back as block `(o, 0, n)` of the output, where `o` is the order table's word at `p` and `g` the category table's.
  By the tables' contents `o` is the sample `s = order p` and `g` is `slab(cat[s])`. So the block written back is the
  specification's entries `(s, r, 1024·n + q)`. The order is a bijection of the 64 samples: every sample's four
  column tiles are written, each by its own point, so the blocks cover the whole output, and two consecutive points
  never write the same block (the next point has another position of the order, or the next tile), so every point
  writes back.
-/
import proofs.«134743_j4741643895621_2_alg».proof.Proof.Gen.KernelIdeal.Frame
import proofs.«134743_j4741643895621_2_alg».proof.Proof.TablesIdeal
import proofs.«134743_j4741643895621_2_alg».proof.Proof.Body
import proofs.«134743_j4741643895621_2_alg».proof.Proof.Spec
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.KValue

open Cert.KernelIdeal Cert.KernelIdeal.Gen Cert.KernelIdeal.Tables Cert.KernelIdeal.Body
open Idealize.ShloMosaic Idealize.ShloMosaic.TcCoe Idealize.SL.Sem Idealize.ShloMosaic.StableHlo
open Idealize.ShloMosaic.ValueIdx Idealize.ShloMosaic.Tactic
open Idealize.ShloMosaic.Pipeline (Dat)
open Cert.CatLinear

/-! ## What the body leaves in the output's staging buffer -/

theorem hz3 : (![0, 0, 0] : Fin 3 → Nat) = fun _ => 0 := funext fun a => by fin_cases a <;> rfl

/-- The one store covers the whole staging buffer, so what the run leaves there is the store's payload: the body's
    arithmetic on the three loaded blocks. -/
theorem out_eq_pay {F : FTy → Type} [FloatOps F] (c : Dev nD) (i : grid0.Coords)
    (arg4 : Memref sig .tc .vmem S1x512x1024 .f32) (harg4 : arg4.IsWhole) (arg5 : Memref sig .tc .vmem S1x1024x1024 .f32) (harg5 : arg5.IsWhole)
    (arg6 : Memref sig .tc .vmem S1x1x1024 .f32) (harg6 : arg6.IsWhole) (arg7 : Memref sig .tc .vmem S1x512x1024 .f32) (harg7 : arg7.IsWhole)
    (x0 : Vec F S1x512x1024 .f32) (x1 : Vec F S1x1024x1024 .f32) (x2 : Vec F S1x1x1024 .f32)
    (xt0 : TbBuf0 (F := F) c tbM0_0) (xt1 : TbBuf0 (F := F) c tbM0_1) :
    out0_A_3 c i arg4 harg4 arg5 harg5 arg6 harg6 arg7 harg7 x0 x1 x2 xt0 xt1 = k0_pay1 x0 x1 x2 := by
  unfold out0_A_3
  rw [View.read_writes_eq_canon _ _ _ (cover0_A_3 c i arg4 harg4 arg5 harg5 arg6 harg6 arg7 harg7 x0 x1 x2 xt0 xt1)]
  unfold kernelRun0_A
  dsimp only
  rw [View.canon_unit_zero hz3]
  simp only [View.readAt_eq_ld, harg4.read_unread, harg5.read_unread, harg6.read_unread,
    View.ld_unit_zero (S := S1x512x1024) hz3, View.ld_unit_zero (S := S1x1024x1024) hz3,
    View.ld_unit_zero (S := S1x1x1024) hz3]

/-! ## The grid: tile and position of a point -/

theorem N256 : grid0.N = 256 := N_0

/-- The Dh-tile of grid point `t`: its first coordinate. -/
def tile (t : Fin grid0.N) : Fin 4 := ⟨(grid0.coords t 0).val, (grid0.coords t 0).isLt⟩
/-- The position in the sorted order of grid point `t`: its second coordinate. -/
def pos (t : Fin grid0.N) : Fin 64 := ⟨(grid0.coords t 1).val, (grid0.coords t 1).isLt⟩

theorem tile_val (t : Fin grid0.N) : (tile t).val = t.val / 64 % 4 := rfl
theorem pos_val (t : Fin grid0.N) : (pos t).val = t.val / 1 % 64 := rfl

/-- The point of tile `n` and position `p`. -/
def point (n : Fin 4) (p : Fin 64) : Fin grid0.N := ⟨n.val * 64 + p.val, by rw [N256]; omega⟩
theorem tile_point (n : Fin 4) (p : Fin 64) : tile (point n p) = n := Fin.ext (by
  rw [tile_val]; show (n.val * 64 + p.val) / 64 % 4 = n.val; omega)
theorem pos_point (n : Fin 4) (p : Fin 64) : pos (point n p) = p := Fin.ext (by
  rw [pos_val]; show (n.val * 64 + p.val) / 1 % 64 = p.val; omega)

/-! ## The index maps at a point, for ANY contents of the tables -/

section AnyTables
variable {F : FTy → Type} [FloatOps F]

/-- The table position an index map reads at grid coordinates `i`: the second coordinate. -/
theorem table_pos (i : grid0.Coords) :
    (Rect.unit (s := S64) ![(Scalar.indexCast (BitVec.ofNat 32 (i 1).val)).toNat] S1.size (k0_off1_inb i)).emb
        (Shape.Idx.first (numel1_S1.symm ▸ Nat.one_pos))
      = ix1 (⟨(i 1).val, (i 1).isLt⟩ : Fin 64) := by
  funext a
  apply Fin.ext
  obtain rfl : a = 0 := Subsingleton.elim _ _
  have h : (i 1).val < 64 := (i 1).isLt
  show (BitVec.ofNat 32 (i 1).val).toNat + 1 * 0 = (i 1).val
  rw [BitVec.toNat_ofNat]; omega

theorem tile_word (i : grid0.Coords) : (BitVec.ofNat 32 (i 0).val).toNat = (i 0).val := by
  have h : (i 0).val < 4 := (i 0).isLt
  rw [BitVec.toNat_ofNat]; omega

theorem map0 (pf : pre0.Contents (Elt F)) (i : grid0.Coords) :
    cc0_transform_0 k0_off1_inb numel1_S1 pf i = ![(pf 0 (ix1 (⟨(i 1).val, (i 1).isLt⟩ : Fin 64))).toNat, 0, 0] := by
  rw [← table_pos i]; rfl
theorem map1 (pf : pre0.Contents (Elt F)) (i : grid0.Coords) :
    cc0_transform_1 k0_off1_inb numel1_S1 pf i = ![(pf 1 (ix1 (⟨(i 1).val, (i 1).isLt⟩ : Fin 64))).toNat, 0, (i 0).val] := by
  rw [← table_pos i, ← tile_word i]; rfl
theorem map2 (pf : pre0.Contents (Elt F)) (i : grid0.Coords) :
    cc0_transform_2 k0_off1_inb numel1_S1 pf i = ![(pf 1 (ix1 (⟨(i 1).val, (i 1).isLt⟩ : Fin 64))).toNat, 0, (i 0).val] := by
  rw [← table_pos i, ← tile_word i]; rfl
theorem map3 (pf : pre0.Contents (Elt F)) (i : grid0.Coords) :
    cc0_transform_3 k0_off1_inb numel1_S1 pf i = ![(pf 0 (ix1 (⟨(i 1).val, (i 1).isLt⟩ : Fin 64))).toNat, 0, (i 0).val] := by
  rw [← table_pos i, ← tile_word i]; rfl

/-- The four windows' block indices at point `t`. -/
theorem index0 (a : (pcfg0 (F := F)).Adm) (pf : pre0.Contents (Elt F)) (hpf : a.1 = pf) (t : Fin (cfg0 a).N) :
    ((cfg0 a).win 0).index t = ![(pf 0 (ix1 (pos t))).toNat, 0, 0] := by
  subst hpf; exact map0 a.1 (grid0.coords t)
theorem index1 (a : (pcfg0 (F := F)).Adm) (pf : pre0.Contents (Elt F)) (hpf : a.1 = pf) (t : Fin (cfg0 a).N) :
    ((cfg0 a).win 1).index t = ![(pf 1 (ix1 (pos t))).toNat, 0, (tile t).val] := by
  subst hpf; exact map1 a.1 (grid0.coords t)
theorem index2 (a : (pcfg0 (F := F)).Adm) (pf : pre0.Contents (Elt F)) (hpf : a.1 = pf) (t : Fin (cfg0 a).N) :
    ((cfg0 a).win 2).index t = ![(pf 1 (ix1 (pos t))).toNat, 0, (tile t).val] := by
  subst hpf; exact map2 a.1 (grid0.coords t)
theorem index3 (a : (pcfg0 (F := F)).Adm) (pf : pre0.Contents (Elt F)) (hpf : a.1 = pf) (t : Fin (cfg0 a).N) :
    ((cfg0 a).win 3).index t = ![(pf 0 (ix1 (pos t))).toNat, 0, (tile t).val] := by
  subst hpf; exact map3 a.1 (grid0.coords t)

/-! ## Where a block's elements sit in its array -/

/-- Element (0, r, k) of the x block at point `t` is element (o, r, k) of `x`, `o` the order table's word. -/
theorem emb0 (a : (pcfg0 (F := F)).Adm) (pf : pre0.Contents (Elt F)) (hpf : a.1 = pf) (t : Fin (cfg0 a).N) (s : Fin 64)
    (hs : (pf 0 (ix1 (pos t))).toNat = s.val)
    (r : Fin 512) (k : Fin 1024) :
    (((cfg0 a).win 0).blk t).view.emb (ix3 (0 : Fin 1) r k) = ix3 s r k := by
  have e : ∀ ax : Fin 3, ((((cfg0 a).win 0).blk t).view.emb (ix3 (0 : Fin 1) r k) ax).val
      = (![(pf 0 (ix1 (pos t))).toNat, 0, 0] : Fin 3 → Nat) ax * S1x512x1024.size ax + 1 * ((ix3 (0 : Fin 1) r k : S1x512x1024.Idx) ax).val := fun ax => by
    rw [← index0 a pf hpf t]; rfl
  funext ax
  apply Fin.ext
  match ax with
  | ⟨0, _⟩ => exact (e 0).trans (by show (pf 0 (ix1 (pos t))).toNat * 1 + 1 * 0 = s.val; omega)
  | ⟨1, _⟩ => exact (e 1).trans (by show 0 * 512 + 1 * r.val = r.val; omega)
  | ⟨2, _⟩ => exact (e 2).trans (by show 0 * 1024 + 1 * k.val = k.val; omega)

/-- Element (0, k, q) of the W block at point `t` is element (g, k, 1024·n + q) of `W`, `g` the category table's word
    and `n` the point's tile. -/
theorem emb1 (a : (pcfg0 (F := F)).Adm) (pf : pre0.Contents (Elt F)) (hpf : a.1 = pf) (t : Fin (cfg0 a).N) (g : Fin 16)
    (hg : (pf 1 (ix1 (pos t))).toNat = g.val)
    (k : Fin 1024) (q : Fin 1024) (col : Fin 4096) (hcol : col.val = (tile t).val * 1024 + q.val) :
    (((cfg0 a).win 1).blk t).view.emb (ix3 (0 : Fin 1) k q) = ix3 g k col := by
  have e : ∀ ax : Fin 3, ((((cfg0 a).win 1).blk t).view.emb (ix3 (0 : Fin 1) k q) ax).val
      = (![(pf 1 (ix1 (pos t))).toNat, 0, (tile t).val] : Fin 3 → Nat) ax * S1x1024x1024.size ax + 1 * ((ix3 (0 : Fin 1) k q : S1x1024x1024.Idx) ax).val := fun ax => by
    rw [← index1 a pf hpf t]; rfl
  funext ax
  apply Fin.ext
  match ax with
  | ⟨0, _⟩ => exact (e 0).trans (by show (pf 1 (ix1 (pos t))).toNat * 1 + 1 * 0 = g.val; omega)
  | ⟨1, _⟩ => exact (e 1).trans (by show 0 * 1024 + 1 * k.val = k.val; omega)
  | ⟨2, _⟩ => exact (e 2).trans (by show (tile t).val * 1024 + 1 * q.val = col.val; omega)

/-- Element (0, 0, q) of the bias block at point `t` is element (g, 0, 1024·n + q) of the bias table. -/
theorem emb2 (a : (pcfg0 (F := F)).Adm) (pf : pre0.Contents (Elt F)) (hpf : a.1 = pf) (t : Fin (cfg0 a).N) (g : Fin 16)
    (hg : (pf 1 (ix1 (pos t))).toNat = g.val)
    (q : Fin 1024) (col : Fin 4096) (hcol : col.val = (tile t).val * 1024 + q.val) :
    (((cfg0 a).win 2).blk t).view.emb (ix3 (0 : Fin 1) (0 : Fin 1) q) = ix3 g (0 : Fin 1) col := by
  have e : ∀ ax : Fin 3, ((((cfg0 a).win 2).blk t).view.emb (ix3 (0 : Fin 1) (0 : Fin 1) q) ax).val
      = (![(pf 1 (ix1 (pos t))).toNat, 0, (tile t).val] : Fin 3 → Nat) ax * S1x1x1024.size ax + 1 * ((ix3 (0 : Fin 1) (0 : Fin 1) q : S1x1x1024.Idx) ax).val := fun ax => by
    rw [← index2 a pf hpf t]; rfl
  funext ax
  apply Fin.ext
  match ax with
  | ⟨0, _⟩ => exact (e 0).trans (by show (pf 1 (ix1 (pos t))).toNat * 1 + 1 * 0 = g.val; omega)
  | ⟨1, _⟩ => exact (e 1).trans (by show 0 * 1 + 1 * 0 = 0; omega)
  | ⟨2, _⟩ => exact (e 2).trans (by show (tile t).val * 1024 + 1 * q.val = col.val; omega)

/-- Element (0, r, q) of the output block at point `t` is element (o, r, 1024·n + q) of the output. -/
theorem emb3 (a : (pcfg0 (F := F)).Adm) (pf : pre0.Contents (Elt F)) (hpf : a.1 = pf) (t : Fin (cfg0 a).N) (s : Fin 64)
    (hs : (pf 0 (ix1 (pos t))).toNat = s.val)
    (r : Fin 512) (q : Fin 1024) (col : Fin 4096) (hcol : col.val = (tile t).val * 1024 + q.val) :
    (((cfg0 a).win 3).blk t).view.emb (ix3 (0 : Fin 1) r q) = ix3 s r col := by
  have e : ∀ ax : Fin 3, ((((cfg0 a).win 3).blk t).view.emb (ix3 (0 : Fin 1) r q) ax).val
      = (![(pf 0 (ix1 (pos t))).toNat, 0, (tile t).val] : Fin 3 → Nat) ax * S1x512x1024.size ax + 1 * ((ix3 (0 : Fin 1) r q : S1x512x1024.Idx) ax).val := fun ax => by
    rw [← index3 a pf hpf t]; rfl
  funext ax
  apply Fin.ext
  match ax with
  | ⟨0, _⟩ => exact (e 0).trans (by show (pf 0 (ix1 (pos t))).toNat * 1 + 1 * 0 = s.val; omega)
  | ⟨1, _⟩ => exact (e 1).trans (by show 0 * 512 + 1 * r.val = r.val; omega)
  | ⟨2, _⟩ => exact (e 2).trans (by show (tile t).val * 1024 + 1 * q.val = col.val; omega)

set_option backward.isDefEq.respectTransparency.types false in
/-- An index of the output is in point `t`'s block iff each coordinate is in the block's range on its axis. -/
theorem mem_blk3 (a : (pcfg0 (F := F)).Adm) (t : Fin (cfg0 a).N) (i : S64x512x4096.Idx) :
    i ∈ (((cfg0 a).win 3).blk t).view.set ↔ ∀ ax : Fin 3, ((cfg0 a).win 3).index t ax * S1x512x1024.size ax ≤ (i ax).val
      ∧ (i ax).val < ((cfg0 a).win 3).index t ax * S1x512x1024.size ax + S1x512x1024.size ax := by
  show i ∈ ((View.whole main_v10).slice (((cfg0 a).win 3).rect t)).set ↔ _
  rw [View.set_slice_whole]
  exact Rect.mem_set_unit

/-- EVERY POINT WRITES BACK, when the order table's words at distinct positions are distinct: the next point is at
    another position of the same tile, or at the next tile, so its output block is another one. -/
theorem flush3 (a : (pcfg0 (F := F)).Adm) (pf : pre0.Contents (Elt F)) (hpf : a.1 = pf)
    (hinj : ∀ p p' : Fin 64, (pf 0 (ix1 p)).toNat = (pf 0 (ix1 p')).toNat → p = p') (t : Fin (cfg0 a).N) :
    ((cfg0 a).win 3).flush t = true := by
  unfold Pipeline.Window.flush
  rw [show ((cfg0 a).win 3).isOut = true from rfl, Bool.true_and, Bool.or_eq_true, decide_eq_true_eq, decide_eq_true_eq]
  have hN : (cfg0 a).grid.N = 256 := N_0
  by_cases hl : t.val + 1 = (cfg0 a).grid.N
  · exact Or.inl hl
  · have ht : t.val < 256 := hN ▸ t.isLt
    have hlt : t.val + 1 < (cfg0 a).grid.N := by omega
    refine Or.inr ⟨hlt, fun h => ?_⟩
    rw [index3 a pf hpf, index3 a pf hpf] at h
    have h0 : (pf 0 (ix1 (pos ⟨t.val + 1, hlt⟩))).toNat = (pf 0 (ix1 (pos t))).toNat := congrFun h 0
    have h2 : (tile ⟨t.val + 1, hlt⟩).val = (tile t).val := congrFun h 2
    have hp : (pos ⟨t.val + 1, hlt⟩).val = (pos t).val := congrArg Fin.val (hinj _ _ h0)
    rw [tile_val, tile_val] at h2
    rw [pos_val, pos_val] at hp
    simp only at h2 hp
    omega

end AnyTables

/-! ## The bias table as the region finds it -/

section Bias
variable {F : FTy → Type} [FloatOps F] (m : (ℓ : Loc nD τ sig) → Buf (Elt F) ℓ)

set_option maxHeartbeats 1000000 in
/-- The host lays the [16, 4096] bias table out as [16, 1, 4096] before the region. -/
theorem V_bias (c : Dev nD) :
    (V m c main_v9 : S16x1x4096.Idx → Elt F .f32)
      = broadcastInDim S16x1x4096 ![0, 2] bcast_S16x4096_S16x1x4096_0_2 (m ((c : Thread nD τ).loc main_arg3)) := by
  dsimp only [V]
  simp only [hostOps0, hostOps0_1, hostOps0_2, hostOps0_3, List.flatten_cons, List.flatten_nil, List.append_nil,
    List.cons_append, List.nil_append]
  after_results <;> rfl

/-- Its element (g, 0, col) is the bias table's (g, col). -/
theorem V_bias_apply (c : Dev nD) (g : Fin 16) (col : Fin 4096) :
    (V m c main_v9 : S16x1x4096.Idx → Elt F .f32) (ix3 g (0 : Fin 1) col) = m ((c : Thread nD τ).loc main_arg3) (ix2 g col) := by
  rw [V_bias]
  exact broadcastInDim_apply _ bcast_S16x4096_S16x1x4096_0_2 _ _ (ix2 g col) (fun a => by
    match a with
    | ⟨0, _⟩ => show g.val = if (16 : Nat) = 1 then 0 else g.val; rw [if_neg (by decide)]
    | ⟨1, _⟩ => show col.val = if (4096 : Nat) = 1 then 0 else col.val; rw [if_neg (by decide)])

end Bias

/-! ## The blocks at the tables the host computes, on the extended reals -/

variable (m : (ℓ : Loc nD τ sig) → Buf (Elt Ideal) ℓ) (ρ : Dev nD → PrngReg)

/-- The specification of the arguments as launched. -/
def spec (c : Dev nD) : S64x512x4096.Idx → EReal :=
  result (m ((c : Thread nD τ).loc main_arg0)) (m ((c : Thread nD τ).loc main_arg1))
    (m ((c : Thread nD τ).loc main_arg2)) (m ((c : Thread nD τ).loc main_arg3))

/-- The category table's word at position `p` is the slab of sample `order p`. -/
theorem slab_word (p : Fin 64) : (tbl m 1 (ix1 p)).toNat = (slab (catw m (ix1 (order m p)))).val := cat_word m p

/-- The x block at point `t`: rows of sample `order (pos t)`. -/
theorem iblk0_apply (c : Dev nD) (t : Fin (cfgM m (ok m)).N) (r : Fin 512) (k : Fin 1024) :
    iblk m (ok m) c 0 t (ix3 (0 : Fin 1) r k) = m ((c : Thread nD τ).loc main_arg0) (ix3 (order m (pos t)) r k) := by
  unfold iblk
  show V m c main_arg0 ((((cfgM m (ok m)).win 0).blk t).view.emb (ix3 (0 : Fin 1) r k)) = _
  rw [emb0 (adm m (ok m)) (tbl m) rfl t (order m (pos t)) (order_word m (pos t)) r k, V_main_arg0]

/-- The W block at point `t`: the column tile of the slab of sample `order (pos t)`. -/
theorem iblk1_apply (c : Dev nD) (t : Fin (cfgM m (ok m)).N) (k : Fin 1024) (q : Fin 1024) (col : Fin 4096)
    (hcol : col.val = (tile t).val * 1024 + q.val) :
    iblk m (ok m) c 1 t (ix3 (0 : Fin 1) k q)
      = m ((c : Thread nD τ).loc main_arg2) (ix3 (slab (catw m (ix1 (order m (pos t))))) k col) := by
  unfold iblk
  show V m c main_arg2 ((((cfgM m (ok m)).win 1).blk t).view.emb (ix3 (0 : Fin 1) k q)) = _
  rw [emb1 (adm m (ok m)) (tbl m) rfl t (slab (catw m (ix1 (order m (pos t))))) (slab_word m (pos t)) k q col hcol, V_main_arg2]

/-- The bias block at point `t`: the column tile of the bias row of sample `order (pos t)`. -/
theorem iblk2_apply (c : Dev nD) (t : Fin (cfgM m (ok m)).N) (q : Fin 1024) (col : Fin 4096)
    (hcol : col.val = (tile t).val * 1024 + q.val) :
    iblk m (ok m) c 2 t (ix3 (0 : Fin 1) (0 : Fin 1) q)
      = m ((c : Thread nD τ).loc main_arg3) (ix2 (slab (catw m (ix1 (order m (pos t))))) col) := by
  unfold iblk
  show (V m c main_v9 : S16x1x4096.Idx → EReal) ((((cfgM m (ok m)).win 2).blk t).view.emb (ix3 (0 : Fin 1) (0 : Fin 1) q)) = _
  rw [emb2 (adm m (ok m)) (tbl m) rfl t (slab (catw m (ix1 (order m (pos t))))) (slab_word m (pos t)) q col hcol]
  exact V_bias_apply m c _ col

/-- THE BLOCK THE BODY LEAVES at point `t`, entry (0, r, q): the specification's entry
    (order (pos t), r, 1024·tile t + q). -/
theorem outs_apply (t : Fin (cfgM m (ok m)).N) (r : Fin 512) (q : Fin 1024) (col : Fin 4096)
    (hcol : col.val = (tile t).val * 1024 + q.val) :
    outsAt0 m (ok m) 0 t (ix3 (0 : Fin 1) r q) = spec m 0 (ix3 (order m (pos t)) r col) := by
  unfold outsAt0
  rw [out_eq_pay (0 : Dev nD) (grid0.coords t) (ms0_0 m (ok m) t) (hs0_0 m (ok m) t) (ms0_1 m (ok m) t) (hs0_1 m (ok m) t)
    (ms0_2 m (ok m) t) (hs0_2 m (ok m) t) (ms0_3 m (ok m) t) (hs0_3 m (ok m) t)
    (iblk m (ok m) 0 0 t) (iblk m (ok m) 0 1 t) (iblk m (ok m) 0 2 t) (tbl m 0) (tbl m 1)]
  refine (pay_apply (iblk m (ok m) 0 0 t) (iblk m (ok m) 0 1 t) (iblk m (ok m) 0 2 t) r q).trans ?_
  unfold spec
  rw [result_ix3]
  unfold entry
  rw [iblk2_apply m 0 t q col hcol]
  refine congrArg (· + m (((0 : Dev nD) : Thread nD τ).loc main_arg3) (ix2 (slab (catw m (ix1 (order m (pos t))))) col))
    (Finset.sum_congr rfl fun k _ => ?_)
  rw [iblk0_apply m 0 t r k, iblk1_apply m 0 t k q col hcol]

/-- WHAT POINT `t` WRITES BACK is block `t` of the specification. -/
theorem flushed_eq (c : Dev nD) (t : Fin (cfgM m (ok m)).N) :
    (dats m (ok m) 0 c).flushed 3 t = (((cfgM m (ok m)).win 3).blk t).view.read (Elt Ideal) (spec m c) := by
  obtain rfl : c = 0 := Subsingleton.elim _ _
  show ((cfgM m (ok m)).win 3).cut (grid0.coords t) ((dats m (ok m) 0 0).after 3 t) = _
  rw [after0_3]
  refine funext fun (j : S1x512x1024.Idx) => ?_
  obtain ⟨u, r, q, rfl⟩ : ∃ (u : Fin 1) (r : Fin 512) (q : Fin 1024), j = ix3 u r q := ⟨j 0, j 1, j 2, eq_ix3 j⟩
  obtain rfl : u = 0 := Subsingleton.elim _ _
  have hq : (tile t).val * 1024 + q.val < 4096 := by have := (tile t).isLt; have := q.isLt; omega
  show outsAt0 m (ok m) 0 t (ix3 (0 : Fin 1) r q)
    = spec m 0 ((((cfgM m (ok m)).win 3).blk t).view.emb (ix3 (0 : Fin 1) r q))
  rw [emb3 (adm m (ok m)) (tbl m) rfl t (order m (pos t)) (order_word m (pos t)) r q ⟨(tile t).val * 1024 + q.val, hq⟩ rfl]
  exact outs_apply m t r q ⟨(tile t).val * 1024 + q.val, hq⟩ rfl

/-- Every point writes its block back: the order is injective. -/
theorem flush_all (t : Fin (cfgM m (ok m)).N) : ((cfgM m (ok m)).win 3).flush t = true :=
  flush3 (adm m (ok m)) (tbl m) rfl (fun p p' h => order_injective m (Fin.ext (by
    rw [order_word, order_word] at h; exact h))) t

/-- The blocks cover the output: entry (s, r, col) is in the block of the point at the order's position of `s` and
    tile `col / 1024`. -/
theorem cover (i : S64x512x4096.Idx) :
    ∃ t : Fin (cfgM m (ok m)).N, ((cfgM m (ok m)).win 3).flush t = true ∧ i ∈ (((cfgM m (ok m)).win 3).blk t).view.set := by
  obtain ⟨p, hp⟩ := order_surjective m (⟨(i 0).val, (i 0).isLt⟩ : Fin 64)
  have hi1 : (i 1).val < 512 := (i 1).isLt
  have hi2 : (i 2).val < 4096 := (i 2).isLt
  refine ⟨point ⟨(i 2).val / 1024, by omega⟩ p, flush_all m _, ?_⟩
  rw [mem_blk3 (adm m (ok m)), index3 (adm m (ok m)) (tbl m) rfl, tile_point, pos_point]
  have hw : (tbl m 0 (ix1 p)).toNat = (i 0).val := (order_word m p).trans (congrArg Fin.val hp)
  intro ax
  match ax with
  | ⟨0, _⟩ =>
    show (tbl m 0 (ix1 p)).toNat * 1 ≤ (i 0).val ∧ (i 0).val < (tbl m 0 (ix1 p)).toNat * 1 + 1
    rw [hw]; omega
  | ⟨1, _⟩ => show 0 * 512 ≤ (i 1).val ∧ (i 1).val < 0 * 512 + 512; omega
  | ⟨2, _⟩ => show (i 2).val / 1024 * 1024 ≤ (i 2).val ∧ (i 2).val < (i 2).val / 1024 * 1024 + 1024; omega

/-- THE OUTPUT ARRAY after the run is the specification of the arguments. -/
theorem final (c : Dev nD) : (dats m (ok m) 0 c).arrAt 3 (cfgM m (ok m)).N = spec m c :=
  (dats m (ok m) 0 c).arrAt_eq_of_cover 3 (spec m c) (fun t _ => flushed_eq m c t) (cover m)

/-- THE KERNEL'S RUN with its result named: the specification of the arguments, which end unchanged. -/
theorem run : θ_run defs (onTc (τ := τ) (main (F := Ideal))) ⟨m, fun _ => 0, ρ⟩ fun r => ∀ c : Dev nD,
      r.2.mem ((c.tc : Thread nD τ).loc main_v10) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 3).trans (final m c),
      ((h c).1 0).trans (((dats m (ok m) 0 c).arrAt_in 0 rfl _).trans ((A_eq m (ok m) c 0).trans (V_main_arg0 m c))),
      ((h c).2 main_arg1 (by decide : main_arg1 ∈ Pipeline.restRefs sig spec0)).trans (V_main_arg1 m c),
      ((h c).1 1).trans (((dats m (ok m) 0 c).arrAt_in 1 rfl _).trans ((A_eq m (ok m) c 1).trans (V_main_arg2 m c))),
      ((h c).2 main_arg3 (by decide : main_arg3 ∈ Pipeline.restRefs sig spec0)).trans (V_main_arg3 m c)⟩)
    (run_main m ρ (ok m))

end Cert.KernelIdeal.KValue

end
-- ==== Proof.LibSlabGather.lean ====
/-
  A SLAB GATHER READ AT AN INDEX: `stablehlo.gather` of whole `[A, B]` slabs of an `[N, A, B]` table at an `[E, 1]`
  array of start indices — what `table[idx]` lowers to for a rank-3 table and a vector of indices. Result element
  `(e, p, q)` is the table at slab `idx[e, 0]` — read as a signed integer and clamped into `[0, N − 1]`, as every
  start index of a gather is — and position `(p, q)` inside the slab. Generic in the sizes `N E A B` and in the index
  width; the dimension numbers are built from the sizes and a proof of their side conditions, so a program's literal
  record is definitionally one of them.
-/
import Idealize.ShloMosaic.PureOps.Ideal
import Idealize.ShloMosaic.Lib.ValueIdx

noncomputable section

namespace Cert.Lib.SlabGather

open Idealize.ShloMosaic
open Idealize.ShloMosaic.ValueIdx

variable {α : Type}

/-- The dimension numbers of a slab gather: operand `[N, A, B]`, start indices `[E, 1]`, result `[E, A, B]`; the
    result's axes 1 and 2 are the offset axes, operand axis 0 is collapsed and is the one the start index names, the
    index vector lies along start-indices axis 1, and a slice is one whole slab (`slice_sizes = [1, A, B]`). -/
abbrev slabsGatherDims (N E A B : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- THE SLAB GATHER READ AT `j = (e, p, q)`: the table at slab `idx[e, 0]`, read signed and clamped into
    `[0, N − 1]`, and position `(p, q)`. -/
theorem gather_slabs_apply {N E A B w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (j : (⟨3, ![E, A, B]⟩ : Shape).Idx) :
    Host.gather (slabsGatherDims N E A B wf) x idx j
      = x (ix3 (⟨min (idx (ix2 (j 0 : Fin E) (0 : Fin 1))).toInt.toNat (N - 1), by omega⟩ : Fin N)
          (j 1 : Fin A) (j 2 : Fin B)) := by
  unfold Host.gather
  refine congrArg x (funext fun a => Fin.ext ?_)
  match a with
  | ⟨0, _⟩ =>
    show (slabsGatherDims N E A B wf).start j idx 0 + (slabsGatherDims N E A B wf).batchCoord j 0
      + (slabsGatherDims N E A B wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabsGatherDims N E A B wf).startIndexMap from List.mem_singleton.mpr rfl)]
    have hsi : (slabsGatherDims N E A B wf).siIdx j ⟨List.idxOf (0 : Fin 3) (slabsGatherDims N E A B wf).startIndexMap,
        List.idxOf_lt_length_iff.2 (List.mem_singleton.mpr rfl)⟩ = ix2 (j 0 : Fin E) (0 : Fin 1) := by
      funext b; refine Fin.ext ?_
      match b with
      | ⟨0, _⟩ => rfl
      | ⟨1, _⟩ => rfl
    rw [hsi]
    rfl
  | ⟨1, _⟩ =>
    show (slabsGatherDims N E A B wf).start j idx 1 + (slabsGatherDims N E A B wf).batchCoord j 1
      + (slabsGatherDims N E A B wf).offCoord j 1 = (j 1).val
    rw [GatherDims.batchCoord_eq_zero _ _ _ List.not_mem_nil]
    unfold GatherDims.start
    rw [dif_neg (show (1 : Fin 3) ∉ (slabsGatherDims N E A B wf).startIndexMap from
      (show (1 : Fin 3) ∉ [(0 : Fin 3)] by decide))]
    simp only [Nat.add_zero, Nat.zero_add]
    unfold GatherDims.offCoord
    rw [dif_pos (show (1 : Fin 3) ∈ (slabsGatherDims N E A B wf).sKept from
      (GatherDims.mem_sKept _ _).mpr ⟨(show (1 : Fin 3) ∉ [(0 : Fin 3)] by decide), List.not_mem_nil⟩)]
    rfl
  | ⟨2, _⟩ =>
    show (slabsGatherDims N E A B wf).start j idx 2 + (slabsGatherDims N E A B wf).batchCoord j 2
      + (slabsGatherDims N E A B wf).offCoord j 2 = (j 2).val
    rw [GatherDims.batchCoord_eq_zero _ _ _ List.not_mem_nil]
    unfold GatherDims.start
    rw [dif_neg (show (2 : Fin 3) ∉ (slabsGatherDims N E A B wf).startIndexMap from
      (show (2 : Fin 3) ∉ [(0 : Fin 3)] by decide))]
    simp only [Nat.add_zero, Nat.zero_add]
    unfold GatherDims.offCoord
    rw [dif_pos (show (2 : Fin 3) ∈ (slabsGatherDims N E A B wf).sKept from
      (GatherDims.mem_sKept _ _).mpr ⟨(show (2 : Fin 3) ∉ [(0 : Fin 3)] by decide), List.not_mem_nil⟩)]
    rfl

/-- The slab gather read at explicit coordinates `(e, p, q)`, for ANY record `d` of dimension numbers that is
    `slabsGatherDims` (the side condition `hd` closes by `rfl` on a literal record); the left side mentions `d`
    itself, so the lemma rewrites a goal that names the record. -/
theorem gather_slabs_apply_ix3_of_eq {N E A B w : Nat} (hN : 0 < N)
    (d : GatherDims ⟨3, ![N, A, B]⟩ ⟨2, ![E, 1]⟩ ⟨3, ![E, A, B]⟩)
    {wf : GatherDims.WF ⟨3, ![N, A, B]⟩ ⟨2, ![E, 1]⟩ ⟨3, ![E, A, B]⟩ [1, 2] [0] [] [0] [] 1 ![1, A, B]}
    (hd : d = slabsGatherDims N E A B wf)
    (x : (⟨3, ![N, A, B]⟩ : Shape).Idx → α) (idx : IVec ⟨2, ![E, 1]⟩ w) (e : Fin E) (p : Fin A) (q : Fin B) :
    Host.gather d x idx (ix3 e p q)
      = x (ix3 (⟨min (idx (ix2 e (0 : Fin 1))).toInt.toNat (N - 1), by omega⟩ : Fin N) p q) := by
  subst hd; exact gather_slabs_apply hN wf x idx (ix3 e p q)

end Cert.Lib.SlabGather

end
-- ==== Proof.RefSpec.lean ====
/-
  The reference computes the specification, wherever the category words are not negative.

  jnp's `W[cat_ids]` and `b[cat_ids]` are gathers whose start word is the category word, wrapped by 16 when it is
  negative, and (as every start index of a gather) clamped so that the slice fits: into 0 … 15. A non-negative word is
  not wrapped, so the gathers read slab `slab(cat[s])` of `W` and row `slab(cat[s])` of `b`. The batched
  `dot_general` is, entry by entry, the sum over the contracted axis, and the bias row is broadcast over the 512 rows.
-/
import proofs.«134743_j4741643895621_2_alg».proof.Proof.Gen.ReferenceIdeal.Read
import proofs.«134743_j4741643895621_2_alg».proof.Proof.Spec
import proofs.«134743_j4741643895621_2_alg».proof.Proof.Words
import proofs.«134743_j4741643895621_2_alg».proof.Proof.LibGatherScatter
import proofs.«134743_j4741643895621_2_alg».proof.Proof.LibSlabGather

set_option maxRecDepth 16384

noncomputable section

open scoped BigOperators

namespace Cert.ReferenceIdeal.RefValue

open Cert.ReferenceIdeal Cert.ReferenceIdeal.Gen
open Idealize.ShloMosaic Idealize.ShloMosaic.ValueIdx
open Cert.CatLinear Cert.Lib.GatherScatter Cert.Lib.SlabGather

/-- The start word of the weight gather for sample `s`: a non-negative category word is not wrapped. -/
theorem starts_W (x1 : IVec S64 32) (s : Fin 64) (hpos : IntOp.cmpi .sge (x1 (ix1 s)) 0#32 = 1#1) :
    Read.val_main_v5 (F := Ideal) x1 (ix2 s (0 : Fin 1)) = x1 (ix1 s) := by
  have e : Read.idx_main_v5 (ix2 s (0 : Fin 1)) = ix1 s := funext fun a => Fin.ext (by match a with | ⟨0, _⟩ => rfl)
  rw [Read.val_main_v5_apply, e, Read.val_main_v4_apply, Read.val_main_v1_apply, Read.val_main_v0_apply,
    Read.val_main_c_apply, not_neg_of_nonneg _ hpos, select_zero]

/-- The start word of the bias gather for sample `s`, likewise. -/
theorem starts_b (x1 : IVec S64 32) (s : Fin 64) (hpos : IntOp.cmpi .sge (x1 (ix1 s)) 0#32 = 1#1) :
    Read.val_main_v12 (F := Ideal) x1 (ix2 s (0 : Fin 1)) = x1 (ix1 s) := by
  have e : Read.idx_main_v12 (ix2 s (0 : Fin 1)) = ix1 s := funext fun a => Fin.ext (by match a with | ⟨0, _⟩ => rfl)
  rw [Read.val_main_v12_apply, e, Read.val_main_v11_apply, Read.val_main_v8_apply, Read.val_main_v7_apply,
    Read.val_main_c_1_apply, not_neg_of_nonneg _ hpos, select_zero]

/-- The gathered weights at (s, k, h): slab `slab(cat[s])` of `W`. -/
theorem gathered_W (x1 : IVec S64 32) (x2 : FVec Ideal S16x1024x4096 .f32) (s : Fin 64) (k : Fin 1024) (h : Fin 4096)
    (hpos : IntOp.cmpi .sge (x1 (ix1 s)) 0#32 = 1#1) :
    Read.val_main_v6 (F := Ideal) x1 x2 (ix3 s k h) = x2 (ix3 (slab (x1 (ix1 s))) k h) := by
  unfold Read.val_main_v6
  refine (gather_slabs_apply_ix3_of_eq (by decide) gather_S16x1024x4096_S64x1_S64x1024x4096_12_0_n_n_0_1_110244096 rfl
    x2 (Read.val_main_v5 (F := Ideal) x1) s k h).trans ?_
  refine congrArg (fun p : Fin 16 => x2 (ix3 p k h)) (Fin.ext ?_)
  show min (Read.val_main_v5 (F := Ideal) x1 (ix2 s (0 : Fin 1))).toInt.toNat (16 - 1) = (slab (x1 (ix1 s))).val
  rw [starts_W x1 s hpos]
  rfl

/-- The gathered bias at (s, h): row `slab(cat[s])` of `b`. -/
theorem gathered_b (x1 : IVec S64 32) (x3 : FVec Ideal S16x4096 .f32) (s : Fin 64) (h : Fin 4096)
    (hpos : IntOp.cmpi .sge (x1 (ix1 s)) 0#32 = 1#1) :
    Read.val_main_v13 (F := Ideal) x1 x3 (ix2 s h) = x3 (ix2 (slab (x1 (ix1 s))) h) := by
  unfold Read.val_main_v13
  refine (gather_rows_apply_ix2_of_eq (by decide) gather_S16x4096_S64x1_S64x4096_1_0_n_n_0_1_14096 rfl
    x3 (Read.val_main_v12 (F := Ideal) x1) s h).trans ?_
  refine congrArg (fun p : Fin 16 => x3 (ix2 p h)) (Fin.ext ?_)
  show min (Read.val_main_v12 (F := Ideal) x1 (ix2 s (0 : Fin 1))).toInt.toNat (16 - 1) = (slab (x1 (ix1 s))).val
  rw [starts_b x1 s hpos]
  rfl

/-- THE REFERENCE'S RESULT IS THE SPECIFICATION, where no category word is negative. -/
theorem ref_eq (x0 : FVec Ideal S64x512x1024 .f32) (x1 : IVec S64 32) (x2 : FVec Ideal S16x1024x4096 .f32)
    (x3 : FVec Ideal S16x4096 .f32) (hpos : ∀ s : Fin 64, IntOp.cmpi .sge (x1 (ix1 s)) 0#32 = 1#1) :
    Read.val_main_v17 (F := Ideal) x0 x1 x2 x3 = result x0 x1 x2 x3 := by
  funext i
  obtain ⟨s, r, h, rfl⟩ : ∃ (s : Fin 64) (r : Fin 512) (h : Fin 4096), i = ix3 s r h := ⟨i 0, i 1, i 2, eq_ix3 i⟩
  have el : ∀ k : Fin 1024, Read.lidx_main_v14 (ix3 s r h) k = ix3 s r k := fun k =>
    funext fun a => Fin.ext (by match a with | ⟨0, _⟩ => rfl | ⟨1, _⟩ => rfl | ⟨2, _⟩ => rfl)
  have er : ∀ k : Fin 1024, Read.ridx_main_v14 (ix3 s r h) k = ix3 s k h := fun k =>
    funext fun a => Fin.ext (by match a with | ⟨0, _⟩ => rfl | ⟨1, _⟩ => rfl | ⟨2, _⟩ => rfl)
  have eb : Read.idx_main_v15 (Read.idx_main_v16 (ix3 s r h)) = ix2 s h :=
    funext fun a => Fin.ext (by match a with | ⟨0, _⟩ => rfl | ⟨1, _⟩ => rfl)
  rw [result_ix3, Read.val_main_v17_apply, Read.val_main_v14_apply, Read.val_main_v16_apply, Read.val_main_v15_apply, eb,
    gathered_b x1 x3 s h (hpos s)]
  unfold entry
  refine congrArg (· + x3 (ix2 (slab (x1 (ix1 s))) h)) (Finset.sum_congr rfl fun k _ => ?_)
  rw [el, er, gathered_W x1 x2 s k h (hpos s)]

end Cert.ReferenceIdeal.RefValue

end
-- ==== Proof.PreDecode.lean ====
/-
  What the precondition says of the category words: its last conjunct is `all(cat_ids ≥ 0)`, a reduction by `and` of
  the signed comparisons `cat[s] ≥ 0` over the 64 samples; where the precondition is all ones, every one of them is 1.
  (Its other conjuncts, the finiteness of the float inputs, are not used: both programs form the same sums of the same
  products, and no law that fails at an infinity is applied.)
-/
import proofs.«134743_j4741643895621_2_alg».proof.Pre_finite_inputs
import proofs.«134743_j4741643895621_2_alg».proof.Proof.Gen.Pre_finite_inputs
import Idealize.ShloMosaic.Lib.ReduceAll
import Idealize.ShloMosaic.Lib.Affine
import Idealize.ShloMosaic.Lib.ValueIdx

noncomputable section

namespace Cert.Pre_finite_inputs.Decode

open Cert.Pre_finite_inputs Cert.Pre_finite_inputs.Gen
open Idealize.ShloMosaic Idealize.ShloMosaic.ValueIdx

instance : Subsingleton S_.Idx := ⟨fun a b => funext fun d => d.elim0⟩

/-- Where the precondition holds, no category word is negative. -/
theorem cat_nonneg {F : FTy → Type} [FloatOps F] (a0 : FVec F S64x512x1024 .f32) (a1 : IVec S64 32)
    (a2 : FVec F S16x1024x4096 .f32) (a3 : FVec F S16x4096 .f32)
    (h : fn (F := F) a0 a1 a2 a3 = fun _ => 1#1) (s : Fin 64) : IntOp.cmpi .sge (a1 (ix1 s)) 0#32 = 1#1 := by
  have e := congrFun h ix0
  unfold fn at e
  dsimp only at e
  unfold fn_part1 at e
  dsimp only at e
  have e2 := (IntOp.andi_eq_one.mp e).2
  exact Host.reduce_andi_all _ _ _ _ _ e2 (ix1 s)

end Cert.Pre_finite_inputs.Decode

end
-- ==== Proof.lean ====
/-
  Category-specific linear layer: for every sample `s`, `out[s] = x[s] · W[c(s)] + b[c(s)]`, where `c(s)` is the
  sample's category.

  The kernel clamps the category ids into 0 … 15, sorts the samples by category, and walks a 4 × 64 grid: at point
  (n, p) it multiplies the rows of the p-th sample of the sorted order by the n-th column tile of that sample's weight
  slab and adds the bias tile, writing the n-th column tile of that sample's output. The reference gathers a weight
  slab and a bias row per sample and contracts. On the extended reals both are, entry by entry,

      out[s, r, h] = Σ_k x[s, r, k] · W[slab(cat[s]), k, h] + b[slab(cat[s]), h]          (Spec.lean),

  `slab` the category word read signed and clamped into 0 … 15: the kernel by its own clamp, the reference by the
  clamp every gather applies to its start index — which agree on every non-negative word; a negative word the
  reference first wraps by 16 (NumPy's negative indexing), and there the two differ, so the statement is made where
  no category id is negative (PreDecode.lean). The sorting permutation drops out because it is a bijection of the
  samples: every sample's four output tiles are written, each by exactly one grid point (Blocks.lean).

  The frames: the pipeline's index maps read the two prefetched tables (the order and the sorted categories); their
  words are below 64 and below 16 whatever the inputs (TablesIdeal.lean, TablesBits.lean), so every block lies
  inside its array. The idealization rewrote nothing, so there is nothing to preserve.
-/
import proofs.«134743_j4741643895621_2_alg».proof.Defs
import proofs.«134743_j4741643895621_2_alg».proof.Proof.Gen.Kernel
import proofs.«134743_j4741643895621_2_alg».proof.Proof.Gen.Kernel.Skeleton
import proofs.«134743_j4741643895621_2_alg».proof.Proof.Gen.Kernel.Launch
import proofs.«134743_j4741643895621_2_alg».proof.Proof.Gen.Kernel.Points
import proofs.«134743_j4741643895621_2_alg».proof.Proof.Gen.Kernel.Frame
import proofs.«134743_j4741643895621_2_alg».proof.Proof.Gen.KernelIdeal
import proofs.«134743_j4741643895621_2_alg».proof.Proof.Gen.KernelIdeal.Skeleton
import proofs.«134743_j4741643895621_2_alg».proof.Proof.Gen.KernelIdeal.Launch
import proofs.«134743_j4741643895621_2_alg».proof.Proof.Gen.KernelIdeal.Points
import proofs.«134743_j4741643895621_2_alg».proof.Proof.Gen.KernelIdeal.Frame
import proofs.«134743_j4741643895621_2_alg».proof.Proof.Gen.ReferenceIdeal
import proofs.«134743_j4741643895621_2_alg».proof.Proof.Gen.ReferenceIdeal.Run
import proofs.«134743_j4741643895621_2_alg».proof.Proof.Gen.ReferenceIdeal.Read
import proofs.«134743_j4741643895621_2_alg».proof.Proof.Gen.Pre_finite_inputs
import proofs.«134743_j4741643895621_2_alg».proof.Proof.TablesBits
import proofs.«134743_j4741643895621_2_alg».proof.Proof.TablesIdeal
import proofs.«134743_j4741643895621_2_alg».proof.Proof.Blocks
import proofs.«134743_j4741643895621_2_alg».proof.Proof.RefSpec
import proofs.«134743_j4741643895621_2_alg».proof.Proof.PreDecode
import Idealize.ShloMosaic.Adequacy
import Idealize.ShloMosaic.Init

noncomputable section

namespace Cert.Proof

open Idealize.ShloMosaic Idealize.SL.Sem

/-- The word-level kernel runs and leaves its arguments alone: the tables' words keep every block inside its array. -/
theorem frame_k : Cert.frame_Kernel := fun m ρ _ => Cert.Kernel.Gen.frame m ρ (Cert.Kernel.Tables.ok m)

/-- So does the idealized kernel. -/
theorem frame_ki : Cert.frame_KernelIdeal := fun m ρ _ => Cert.KernelIdeal.Gen.frame m ρ (Cert.KernelIdeal.Tables.ok m)

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification of the (agreeing) arguments. -/
theorem algebraic : Cert.algebraic_KernelIdeal_ReferenceIdeal := by
  intro m ρ m' ρ' hpre hagree
  refine ⟨fun c => Cert.KernelIdeal.KValue.spec m c, Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, (hagree c).1, (hagree c).2.1, (hagree c).2.2.1, (hagree c).2.2.2]
  exact Cert.ReferenceIdeal.RefValue.ref_eq _ _ _ _
    (fun s => Cert.Pre_finite_inputs.Decode.cat_nonneg _ _ _ _ (hpre c) s)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
